-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x256 : Shape := ⟨2, ![1024, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S320x1024 : S_.BroadcastsInDim S320x1024 (![] : Fin 0 → Fin S320x1024.rank)
  reducesTo_S320x1024_S_d0_1 : S320x1024.ReducesTo [0, 1] S_
  bcast_S_S1024 : S_.BroadcastsInDim S1024 (![] : Fin 0 → Fin S1024.rank)
  reducesTo_S1024_S_d0 : S1024.ReducesTo [0] S_
  bcast_S_S1024x4256 : S_.BroadcastsInDim S1024x4256 (![] : Fin 0 → Fin S1024x4256.rank)
  reducesTo_S1024x4256_S_d0_1 : S1024x4256.ReducesTo [0, 1] S_
  bcast_S_S2176x4 : S_.BroadcastsInDim S2176x4 (![] : Fin 0 → Fin S2176x4.rank)
  reducesTo_S2176x4_S_d0_1 : S2176x4.ReducesTo [0, 1] S_
  bcast_S_S2176 : S_.BroadcastsInDim S2176 (![] : Fin 0 → Fin S2176.rank)
  reducesTo_S2176_S_d0 : S2176.ReducesTo [0] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x1024 .f32) (main_arg12 : FVec F S1024x256 .f32) (main_arg13 : FVec F S256 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024x256 .f32 := Host.absf main_arg12
  let main_cst_22 : FVec F S_ .f32 := constant S_ .f32 0x7F800000#32
  let main_v60 : FVec F S1024x256 .f32 := broadcastInDim S1024x256 ![] bcast_S_S1024x256 main_cst_22
  let main_v61 : IVec S1024x256 1 := cmpf .olt main_v59 main_v60
  let main_c_23 : IVec S_ 1 := constantI S_ 1 1#1
  let main_v62 : IVec S_ 1 := (fun x v => Host.reduce IntOp.andi x v reducesTo_S1024x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S32 .f32) (main_arg8 : FVec F S32 .f32) (main_arg9 : FVec F S32 .f32) (main_arg10 : FVec F S2048 .f32) (main_arg11 : FVec F S2048x1024 .f32) (main_arg12 : FVec F S1024x256 .f32) (main_arg13 : FVec F S256 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_v48 main_v49 main_v50

def fn_part1 {F : FTy → Type} [FloatOps F] (main_arg4 : FVec F S1024x4256 .f32) (main_arg5 : FVec F S2176x4 .f32) (main_arg6 : FVec F S2176 .f32) (main_arg7 : FVec F S32 .f32) (main_arg8 : FVec F S32 .f32) (main_arg9 : FVec F S32 .f32) (main_arg10 : FVec F S2048 .f32) (main_arg11 : FVec F S2048x1024 .f32) (main_arg12 : FVec F S1024x256 .f32) (main_arg13 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4256 .f32 := Host.absf main_arg4
  let main_cst_6 : FVec F S_ .f32 := constant S_ .f32 0x7F800000#32
  let main_v20 : FVec F S1024x4256 .f32 := broadcastInDim S1024x4256 ![] bcast_S_S1024x4256 main_cst_6
  let main_v21 : IVec S1024x4256 1 := cmpf .olt main_v19 main_v20
  let main_c_7 : IVec S_ 1 := constantI S_ 1 1#1
  let main_v22 : IVec S_ 1 := (fun x v => Host.reduce IntOp.andi x v reducesTo_S1024x4256_S_d0_1 h_S_) main_v21 main_c_7
  let main_v23 : IVec S_ 1 := andi main_v18 main_v22
  let main_v24 : FVec F S2176x4 .f32 := Host.absf main_arg5
  let main_cst_8 : FVec F S_ .f32 := constant S_ .f32 0x7F800000#32
  let main_v25 : FVec F S2176x4 .f32 := broadcastInDim S2176x4 ![] bcast_S_S2176x4 main_cst_8
  let main_v26 : IVec S2176x4 1 := cmpf .olt main_v24 main_v25
  let main_c_9 : IVec S_ 1 := constantI S_ 1 1#1
  let main_v27 : IVec S_ 1 := (fun x v => Host.reduce IntOp.andi x v reducesTo_S2176x4_S_d0_1 h_S_) main_v26 main_c_9
  let main_v28 : IVec S_ 1 := andi main_v23 main_v27
  let main_v29 : FVec F S2176 .f32 := Host.absf main_arg6
  let main_cst_10 : FVec F S_ .f32 := constant S_ .f32 0x7F800000#32
  let main_v30 : FVec F S2176 .f32 := broadcastInDim S2176 ![] bcast_S_S2176 main_cst_10
  let main_v31 : IVec S2176 1 := cmpf .olt main_v29 main_v30
  let main_c_11 : IVec S_ 1 := constantI S_ 1 1#1
  let main_v32 : IVec S_ 1 := (fun x v => Host.reduce IntOp.andi x v reducesTo_S2176_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x256 .f32) (main_arg1 : FVec F S16384x64 .f32) (main_arg2 : FVec F S320x1024 .f32) (main_arg3 : FVec F S1024 .f32) (main_arg4 : FVec F S1024x4256 .f32) (main_arg5 : FVec F S2176x4 .f32) (main_arg6 : FVec F S2176 .f32) (main_arg7 : FVec F S32 .f32) (main_arg8 : FVec F S32 .f32) (main_arg9 : FVec F S32 .f32) (main_arg10 : FVec F S2048 .f32) (main_arg11 : FVec F S2048x1024 .f32) (main_arg12 : FVec F S1024x256 .f32) (main_arg13 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S320x1024 .f32 := Host.absf main_arg2
  let main_cst_2 : FVec F S_ .f32 := constant S_ .f32 0x7F800000#32
  let main_v10 : FVec F S320x1024 .f32 := broadcastInDim S320x1024 ![] bcast_S_S320x1024 main_cst_2
  let main_v11 : IVec S320x1024 1 := cmpf .olt main_v9 main_v10
  let main_c_3 : IVec S_ 1 := constantI S_ 1 1#1
  let main_v12 : IVec S_ 1 := (fun x v => Host.reduce IntOp.andi x v reducesTo_S320x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x256 : Shape := ⟨2, ![1024, 256]⟩
abbrev S256 : Shape := ⟨1, ![256]⟩
abbrev S256x1024 : Shape := ⟨2, ![256, 1024]⟩
abbrev S64x1024 : Shape := ⟨2, ![64, 1024]⟩
abbrev S1x1024 : Shape := ⟨2, ![1, 1024]⟩
abbrev S1024x2048 : Shape := ⟨2, ![1024, 2048]⟩
abbrev S1024x64 : Shape := ⟨2, ![1024, 64]⟩
abbrev S1024x32 : Shape := ⟨2, ![1024, 32]⟩
abbrev S_ : Shape := ⟨0, ![]⟩
abbrev S1024x128 : Shape := ⟨2, ![1024, 128]⟩
abbrev S2176x1 : Shape := ⟨2, ![2176, 1]⟩
abbrev S1x2048 : Shape := ⟨2, ![1, 2048]⟩
abbrev S64 : Shape := ⟨1, ![64]⟩
abbrev S128 : Shape := ⟨1, ![128]⟩
abbrev S1x128 : Shape := ⟨2, ![1, 128]⟩
abbrev S1x32 : Shape := ⟨2, ![1, 32]⟩
abbrev S32x64 : Shape := ⟨2, ![32, 64]⟩
abbrev S32x32 : Shape := ⟨2, ![32, 32]⟩
abbrev S32x32x64 : Shape := ⟨3, ![32, 32, 64]⟩
abbrev S32x2048 : Shape := ⟨2, ![32, 2048]⟩
abbrev S1x256 : Shape := ⟨2, ![1, 256]⟩
abbrev S256x256 : Shape := ⟨2, ![256, 256]⟩
abbrev S256x64 : Shape := ⟨2, ![256, 64]⟩
abbrev S256x2048 : Shape := ⟨2, ![256, 2048]⟩
abbrev S256x128 : Shape := ⟨2, ![256, 128]⟩
abbrev S256x32 : Shape := ⟨2, ![256, 32]⟩
abbrev S256x1 : Shape := ⟨2, ![256, 1]⟩

abbrev nBuf : Space → Nat
  | .hbm => 82
  | .vmem => 27
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S320x1024, .f32⟩
  | .hbm, ⟨3, _⟩ => ⟨S1024, .f32⟩
  | .hbm, ⟨4, _⟩ => ⟨S1024x4256, .f32⟩
  | .hbm, ⟨5, _⟩ => ⟨S2176x4, .f32⟩
  | .hbm, ⟨6, _⟩ => ⟨S2176, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x256, .f32⟩
  | .hbm, ⟨13, _⟩ => ⟨S256, .f32⟩
  | .hbm, ⟨14, _⟩ => ⟨S256x1024, .f32⟩
  | .hbm, ⟨15, _⟩ => ⟨S256x1024, .bf16⟩
  | .hbm, ⟨16, _⟩ => ⟨S64x1024, .f32⟩
  | .hbm, ⟨17, _⟩ => ⟨S64x1024, .bf16⟩
  | .hbm, ⟨18, _⟩ => ⟨S1x1024, .f32⟩
  | .hbm, ⟨19, _⟩ => ⟨S1024x2048, .f32⟩
  | .hbm, ⟨20, _⟩ => ⟨S1024x2048, .bf16⟩
  | .hbm, ⟨21, _⟩ => ⟨S1024x2048, .f32⟩
  | .hbm, ⟨22, _⟩ => ⟨S1024x2048, .bf16⟩
  | .hbm, ⟨23, _⟩ => ⟨S1024x64, .f32⟩
  | .hbm, ⟨24, _⟩ => ⟨S1024x64, .f32⟩
  | .hbm, ⟨25, _⟩ => ⟨S1024x32, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x128, .bf16⟩
  | .hbm, ⟨30, _⟩ => ⟨S_, .i32⟩
  | .hbm, ⟨31, _⟩ => ⟨S_, .f32⟩
  | .hbm, ⟨32, _⟩ => ⟨S1024x128, .f32⟩
  | .hbm, ⟨33, _⟩ => ⟨S1024x128, .bf16⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S1024x128, .bf16⟩
  | .hbm, ⟨38, _⟩ => ⟨S2176x1, .f32⟩
  | .hbm, ⟨39, _⟩ => ⟨S2176, .f32⟩
  | .hbm, ⟨40, _⟩ => ⟨S2048, .f32⟩
  | .hbm, ⟨41, _⟩ => ⟨S1x2048, .f32⟩
  | .hbm, ⟨42, _⟩ => ⟨S64, .f32⟩
  | .hbm, ⟨43, _⟩ => ⟨S64, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S2048, .f32⟩
  | .hbm, ⟨53, _⟩ => ⟨S1x2048, .f32⟩
  | .hbm, ⟨54, _⟩ => ⟨S64, .f32⟩
  | .hbm, ⟨55, _⟩ => ⟨S64, .f32⟩
  | .hbm, ⟨56, _⟩ => ⟨S_, .i32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S_, .i32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S1x32, .f32⟩
  | .hbm, ⟨65, _⟩ => ⟨S32x64, .f32⟩
  | .hbm, ⟨66, _⟩ => ⟨S2048, .f32⟩
  | .hbm, ⟨67, _⟩ => ⟨S1x2048, .f32⟩
  | .hbm, ⟨68, _⟩ => ⟨S32x32, .i32⟩
  | .hbm, ⟨69, _⟩ => ⟨S32x32, .i32⟩
  | .hbm, ⟨70, _⟩ => ⟨S_, .i32⟩
  | .hbm, ⟨71, _⟩ => ⟨S32x32, .i32⟩
  | .hbm, ⟨72, _⟩ => ⟨S32x32, .i32⟩
  | .hbm, ⟨73, _⟩ => ⟨S32x32, .i1⟩
  | .hbm, ⟨74, _⟩ => ⟨S32x32, .f32⟩
  | .hbm, ⟨75, _⟩ => ⟨S32x32x64, .f32⟩
  | .hbm, ⟨76, _⟩ => ⟨S32x2048, .f32⟩
  | .hbm, ⟨77, _⟩ => ⟨S1x2048, .f32⟩
  | .hbm, ⟨78, _⟩ => ⟨S2048x1024, .bf16⟩
  | .hbm, ⟨79, _⟩ => ⟨S1024x256, .bf16⟩
  | .hbm, ⟨80, _⟩ => ⟨S1x256, .f32⟩
  | .hbm, ⟨81, _⟩ => ⟨S16384x256, .f32⟩
  | .local _ .vmem, ⟨0, _⟩ => ⟨S256x256, .f32⟩
  | .local _ .vmem, ⟨1, _⟩ => ⟨S256x256, .f32⟩
  | .local _ .vmem, ⟨2, _⟩ => ⟨S256x64, .f32⟩
  | .local _ .vmem, ⟨3, _⟩ => ⟨S256x64, .f32⟩
  | .local _ .vmem, ⟨4, _⟩ => ⟨S256x1024, .bf16⟩
  | .local _ .vmem, ⟨5, _⟩ => ⟨S64x1024, .bf16⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1x2048, .f32⟩
  | .local _ .vmem, ⟨13, _⟩ => ⟨S1x2048, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x32, .f32⟩
  | .local _ .vmem, ⟨19, _⟩ => ⟨S1x2048, .f32⟩
  | .local _ .vmem, ⟨20, _⟩ => ⟨S32x2048, .f32⟩
  | .local _ .vmem, ⟨21, _⟩ => ⟨S1x2048, .f32⟩
  | .local _ .vmem, ⟨22, _⟩ => ⟨S2048x1024, .bf16⟩
  | .local _ .vmem, ⟨23, _⟩ => ⟨S1024x256, .bf16⟩
  | .local _ .vmem, ⟨24, _⟩ => ⟨S1x256, .f32⟩
  | .local _ .vmem, ⟨25, _⟩ => ⟨S256x256, .f32⟩
  | .local _ .vmem, ⟨26, _⟩ => ⟨S256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_call1_v0 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_call4_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_call5_v0 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_call6_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2048x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  slices_S320x1024_S256x1024_0_0 : S320x1024.Slices ![0, 0] S256x1024
  bitsLt_bf16_f32 : FTy.bits .bf16 < FTy.bits .f32
  slices_S320x1024_S64x1024_256_0 : S320x1024.Slices ![256, 0] S64x1024
  shapeCasts_S1024_S1x1024 : S1024.ShapeCasts S1x1024
  slices_S1024x4256_S1024x2048_0_0 : S1024x4256.Slices ![0, 0] S1024x2048
  slices_S1024x4256_S1024x2048_0_2048 : S1024x4256.Slices ![0, 2048] S1024x2048
  slices_S1024x4256_S1024x64_0_4096 : S1024x4256.Slices ![0, 4096] S1024x64
  slices_S1024x4256_S1024x64_0_4160 : S1024x4256.Slices ![0, 4160] S1024x64
  slices_S1024x4256_S1024x32_0_4224 : S1024x4256.Slices ![0, 4224] S1024x32
  pads_S1024x64_S1024x128_000_0640 : S1024x64.Pads (![0, 0] : Fin 2 → Nat) ![0, 64] ![0, 0] S1024x128
  h_S_ : 0 < S_.numel
  pads_S1024x32_S1024x128_000_0960 : S1024x32.Pads (![0, 0] : Fin 2 → Nat) ![0, 96] ![0, 0] S1024x128
  slices_S2176x4_S2176x1_0_3 : S2176x4.Slices ![0, 3] S2176x1
  shapeCasts_S2176x1_S2176 : S2176x1.ShapeCasts S2176
  slices_S2176_S2048_0 : S2176.Slices ![0] S2048
  shapeCasts_S2048_S1x2048 : S2048.ShapeCasts S1x2048
  slices_S2176_S64_2048 : S2176.Slices ![2048] S64
  slices_S2176_S64_2112 : S2176.Slices ![2112] S64
  pads_S64_S128_0640 : S64.Pads (![0] : Fin 1 → Nat) ![64] ![0] S128
  shapeCasts_S128_S1x128 : S128.ShapeCasts S1x128
  shapeCasts_S32_S1x32 : S32.ShapeCasts S1x32
  bcast_S32_S32x64_0 : S32.BroadcastsInDim S32x64 (![0] : Fin 1 → Fin S32x64.rank)
  shapeCasts_S32x64_S2048 : S32x64.ShapeCasts S2048
  bcast_S_S32x32 : S_.BroadcastsInDim S32x32 (![] : Fin 0 → Fin S32x32.rank)
  bcast_S32x32_S32x32x64_0_1 : S32x32.BroadcastsInDim S32x32x64 (![0, 1] : Fin 2 → Fin S32x32x64.rank)
  shapeCasts_S32x32x64_S32x2048 : S32x32x64.ShapeCasts S32x2048
  shapeCasts_S256_S1x256 : S256.ShapeCasts S1x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S256x128_o0_0_S256x32 : S256x128.Slices ![0, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  reduces_S256x128_S256 : S256x128.Reduces [1] S256
  shapeCasts_S256_S256x1 : S256.ShapeCasts S256x1
  broadcasts_S256x1_S256x32 : S256x1.Broadcasts S256x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  reduces_S256x2048_S256 : S256x2048.Reduces [1] S256
  broadcasts_S256x1_S256x2048 : S256x1.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x1024_S256x1024_1_0_0_1_n_n_wf : DotDims.WF S256x256 S256x1024 S256x1024 [1] [0] [0] [1] [] []
  dot_S256x64_S64x1024_S256x1024_1_0_0_1_n_n_wf : DotDims.WF S256x64 S64x1024 S256x1024 [1] [0] [0] [1] [] []
  dot_S256x1024_S1024x2048_S256x2048_1_0_0_1_n_n_wf : DotDims.WF S256x1024 S1024x2048 S256x2048 [1] [0] [0] [1] [] []
  dot_S256x1024_S1024x128_S256x128_1_0_0_1_n_n_wf : DotDims.WF S256x1024 S1024x128 S256x128 [1] [0] [0] [1] [] []
  dot_S256x32_S32x2048_S256x2048_1_0_0_1_n_n_wf : DotDims.WF S256x32 S32x2048 S256x2048 [1] [0] [0] [1] [] []
  dot_S256x2048_S2048x1024_S256x1024_1_0_0_1_n_n_wf : DotDims.WF S256x2048 S2048x1024 S256x1024 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .f32 = 32 ∨ (Rect.block (s := S16384x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .bf16 = 32 ∨ (Rect.block (s := S64x1024) S64x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S1024x128.size a
  hwx0_8 : ∀ i : grid0.Coords, EltTy.bits .bf16 = 32 ∨ (Rect.block (s := S1024x128) S1024x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S1024x128.size a
  hwx0_9 : ∀ i : grid0.Coords, EltTy.bits .bf16 = 32 ∨ (Rect.block (s := S1024x128) S1024x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x32.size a ≤ S1x32.size a
  hwx0_16 : ∀ i : grid0.Coords, EltTy.bits .f32 = 32 ∨ (Rect.block (s := S1x32) S1x32.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x2048.size a ≤ S1x2048.size a
  hwx0_17 : ∀ i : grid0.Coords, EltTy.bits .f32 = 32 ∨ (Rect.block (s := S1x2048) S1x2048.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S32x2048.size a ≤ S32x2048.size a
  hwx0_18 : ∀ i : grid0.Coords, EltTy.bits .f32 = 32 ∨ (Rect.block (s := S32x2048) S32x2048.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x2048.size a ≤ S1x2048.size a
  hwx0_19 : ∀ i : grid0.Coords, EltTy.bits .f32 = 32 ∨ (Rect.block (s := S1x2048) S1x2048.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S2048x1024.size a ≤ S2048x1024.size a
  hwx0_20 : ∀ i : grid0.Coords, EltTy.bits .bf16 = 32 ∨ (Rect.block (s := S2048x1024) S2048x1024.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1024x256.size a ≤ S1024x256.size a
  hwx0_21 : ∀ i : grid0.Coords, EltTy.bits .bf16 = 32 ∨ (Rect.block (s := S1024x256) S1024x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S16384x256.size a
  hwx0_23 : ∀ i : grid0.Coords, EltTy.bits .f32 = 32 ∨ (Rect.block (s := S16384x256) S256x256.size (cc0_transform_23 i) (hinb0_23 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1024x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1024x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v35) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v36) S1x32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v39) S1x2048.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v47) S32x2048.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v48) S1x2048.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v49) S2048x1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v50) S1024x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v51) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v52) S256x256.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x256 : Shape := ⟨2, ![1024, 256]⟩
abbrev S256 : Shape := ⟨1, ![256]⟩
abbrev S16384x320 : Shape := ⟨2, ![16384, 320]⟩
abbrev S16384x1024 : Shape := ⟨2, ![16384, 1024]⟩
abbrev S1x1024 : Shape := ⟨2, ![1, 1024]⟩
abbrev S16384x4256 : Shape := ⟨2, ![16384, 4256]⟩
abbrev S16384x2048 : Shape := ⟨2, ![16384, 2048]⟩
abbrev S16384x2176 : Shape := ⟨2, ![16384, 2176]⟩
abbrev S16384x32 : Shape := ⟨2, ![16384, 32]⟩
abbrev S2176x1 : Shape := ⟨2, ![2176, 1]⟩
abbrev S1x2176 : Shape := ⟨2, ![1, 2176]⟩
abbrev S_ : Shape := ⟨0, ![]⟩
abbrev S1x32 : Shape := ⟨2, ![1, 32]⟩
abbrev S16384x32x64 : Shape := ⟨3, ![16384, 32, 64]⟩
abbrev S16384 : Shape := ⟨1, ![16384]⟩
abbrev S16384x1 : Shape := ⟨2, ![16384, 1]⟩
abbrev S16384x32x1 : Shape := ⟨3, ![16384, 32, 1]⟩
abbrev S1x32x1 : Shape := ⟨3, ![1, 32, 1]⟩
abbrev S1x2048 : Shape := ⟨2, ![1, 2048]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S320x1024, .f32⟩
  | .hbm, ⟨3, _⟩ => ⟨S1024, .f32⟩
  | .hbm, ⟨4, _⟩ => ⟨S1024x4256, .f32⟩
  | .hbm, ⟨5, _⟩ => ⟨S2176x4, .f32⟩
  | .hbm, ⟨6, _⟩ => ⟨S2176, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x256, .f32⟩
  | .hbm, ⟨13, _⟩ => ⟨S256, .f32⟩
  | .hbm, ⟨14, _⟩ => ⟨S16384x320, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4256, .f32⟩
  | .hbm, ⟨20, _⟩ => ⟨S16384x2048, .f32⟩
  | .hbm, ⟨21, _⟩ => ⟨S16384x2176, .f32⟩
  | .hbm, ⟨22, _⟩ => ⟨S16384x32, .f32⟩
  | .hbm, ⟨23, _⟩ => ⟨S2176x1, .f32⟩
  | .hbm, ⟨24, _⟩ => ⟨S2176, .f32⟩
  | .hbm, ⟨25, _⟩ => ⟨S1x2176, .f32⟩
  | .hbm, ⟨26, _⟩ => ⟨S16384x2176, .f32⟩
  | .hbm, ⟨27, _⟩ => ⟨S16384x2176, .f32⟩
  | .hbm, ⟨28, _⟩ => ⟨S1x2176, .f32⟩
  | .hbm, ⟨29, _⟩ => ⟨S16384x2176, .f32⟩
  | .hbm, ⟨30, _⟩ => ⟨S16384x2176, .f32⟩
  | .hbm, ⟨31, _⟩ => ⟨S16384x2176, .f32⟩
  | .hbm, ⟨32, _⟩ => ⟨S16384x2176, .f32⟩
  | .hbm, ⟨33, _⟩ => ⟨S_, .f32⟩
  | .hbm, ⟨34, _⟩ => ⟨S16384x2176, .f32⟩
  | .hbm, ⟨35, _⟩ => ⟨S16384x2176, .f32⟩
  | .hbm, ⟨36, _⟩ => ⟨S_, .f32⟩
  | .hbm, ⟨37, _⟩ => ⟨S16384x2176, .f32⟩
  | .hbm, ⟨38, _⟩ => ⟨S16384x2176, .f32⟩
  | .hbm, ⟨39, _⟩ => ⟨S16384x2176, .f32⟩
  | .hbm, ⟨40, _⟩ => ⟨S16384x2048, .f32⟩
  | .hbm, ⟨41, _⟩ => ⟨S16384x64, .f32⟩
  | .hbm, ⟨42, _⟩ => ⟨S16384x64, .f32⟩
  | .hbm, ⟨43, _⟩ => ⟨S1x32, .f32⟩
  | .hbm, ⟨44, _⟩ => ⟨S16384x32, .f32⟩
  | .hbm, ⟨45, _⟩ => ⟨S16384x32, .f32⟩
  | .hbm, ⟨46, _⟩ => ⟨S_, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S16384x32, .i1⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S16384x32, .f32⟩
  | .hbm, ⟨60, _⟩ => ⟨S16384x32x64, .f32⟩
  | .hbm, ⟨61, _⟩ => ⟨S16384x64, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x32, .f32⟩
  | .hbm, ⟨66, _⟩ => ⟨S16384x32, .f32⟩
  | .hbm, ⟨67, _⟩ => ⟨S16384x32x1, .f32⟩
  | .hbm, ⟨68, _⟩ => ⟨S16384x32x64, .f32⟩
  | .hbm, ⟨69, _⟩ => ⟨S16384x32x64, .f32⟩
  | .hbm, ⟨70, _⟩ => ⟨S1x32x1, .f32⟩
  | .hbm, ⟨71, _⟩ => ⟨S16384x32x64, .f32⟩
  | .hbm, ⟨72, _⟩ => ⟨S16384x32x64, .f32⟩
  | .hbm, ⟨73, _⟩ => ⟨S16384x32x64, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384x2048, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x2048, .f32⟩
  | .hbm, ⟨97, _⟩ => ⟨S16384x2048, .f32⟩
  | .hbm, ⟨98, _⟩ => ⟨S1x2048, .f32⟩
  | .hbm, ⟨99, _⟩ => ⟨S16384x2048, .f32⟩
  | .hbm, ⟨100, _⟩ => ⟨S16384x2048, .f32⟩
  | .hbm, ⟨101, _⟩ => ⟨S16384x1024, .f32⟩
  | .hbm, ⟨102, _⟩ => ⟨S16384x256, .f32⟩
  | .hbm, ⟨103, _⟩ => ⟨S1x256, .f32⟩
  | .hbm, ⟨104, _⟩ => ⟨S16384x256, .f32⟩
  | .hbm, ⟨105, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_0 : Ref sig .tc := ⟨.hbm, 86, rfl⟩
abbrev main_v42 : Ref sig .tc := ⟨.hbm, 87, rfl⟩
abbrev main_v43 : Ref sig .tc := ⟨.hbm, 88, rfl⟩
abbrev main_cst_1 : Ref sig .tc := ⟨.hbm, 89, rfl⟩
abbrev main_v44 : Ref sig .tc := ⟨.hbm, 90, rfl⟩
abbrev main_v45 : Ref sig .tc := ⟨.hbm, 91, rfl⟩
abbrev main_cst_2 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]

class Facts₀ : Prop where
  concatenates_S16384x256_S16384x64_S16384x320_d1 : Shape.Concatenates [S16384x256, S16384x64] S16384x320 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x4256_S16384x2048_0_0 : S16384x4256.Slices ![0, 0] S16384x2048
  slices_S16384x4256_S16384x2176_0_2048 : S16384x4256.Slices ![0, 2048] S16384x2176
  slices_S16384x4256_S16384x32_0_4224 : S16384x4256.Slices ![0, 4224] S16384x32
  slices_S2176x4_S2176x1_0_3 : S2176x4.Slices ![0, 3] S2176x1
  shapeCasts_S2176x1_S2176 : S2176x1.ShapeCasts S2176
  bcast_S2176_S1x2176_1 : S2176.BroadcastsInDim S1x2176 (![1] : Fin 1 → Fin S1x2176.rank)
  bcast_S1x2176_S16384x2176_0_1 : S1x2176.BroadcastsInDim S16384x2176 (![0, 1] : Fin 2 → Fin S16384x2176.rank)
  bcast_S_S16384x2176 : S_.BroadcastsInDim S16384x2176 (![] : Fin 0 → Fin S16384x2176.rank)
  slices_S16384x2176_S16384x2048_0_0 : S16384x2176.Slices ![0, 0] S16384x2048
  slices_S16384x2176_S16384x64_0_2048 : S16384x2176.Slices ![0, 2048] S16384x64
  slices_S16384x2176_S16384x64_0_2112 : S16384x2176.Slices ![0, 2112] S16384x64
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  shapeCasts_S16384x2048_S16384x32x64 : S16384x2048.ShapeCasts S16384x32x64
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  bcast_S16384x32_S16384x32x1_0_1 : S16384x32.BroadcastsInDim S16384x32x1 (![0, 1] : Fin 2 → Fin S16384x32x1.rank)
  bcast_S16384x32x1_S16384x32x64_0_1_2 : S16384x32x1.BroadcastsInDim S16384x32x64 (![0, 1, 2] : Fin 3 → Fin S16384x32x64.rank)
  bcast_S32_S1x32x1_1 : S32.BroadcastsInDim S1x32x1 (![1] : Fin 1 → Fin S1x32x1.rank)
  bcast_S1x32x1_S16384x32x64_0_1_2 : S1x32x1.BroadcastsInDim S16384x32x64 (![0, 1, 2] : Fin 3 → Fin S16384x32x64.rank)
  shapeCasts_S16384x32x64_S16384x2048 : S16384x32x64.ShapeCasts S16384x2048
  bcast_S_S16384x2048 : S_.BroadcastsInDim S16384x2048 (![] : Fin 0 → Fin S16384x2048.rank)
  reducesTo_S16384x2048_S16384_d1 : S16384x2048.ReducesTo [1] S16384
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x320_S320x1024_S16384x1024_1_0_0_1_n_n_wf : DotDims.WF S16384x320 S320x1024 S16384x1024 [1] [0] [0] [1] [] []
  dot_S16384x1024_S1024x4256_S16384x4256_1_0_0_1_n_n_wf : DotDims.WF S16384x1024 S1024x4256 S16384x4256 [1] [0] [0] [1] [] []
  dot_S16384x2048_S2048x1024_S16384x1024_1_0_0_1_n_n_wf : DotDims.WF S16384x2048 S2048x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x320_S320x1024_S16384x1024_1_0_0_1_n_n : DotDims S16384x320 S320x1024 S16384x1024 where
  lhsContracting := [1]
  rhsContracting := [0]
  lhsNonContracting := [0]
  rhsNonContracting := [1]
  lhsBatch := []
  rhsBatch := []
  wf := dot_S16384x320_S320x1024_S16384x1024_1_0_0_1_n_n_wf
def dot_S16384x1024_S1024x4256_S16384x4256_1_0_0_1_n_n : DotDims S16384x1024 S1024x4256 S16384x4256 where
  lhsContracting := [1]
  rhsContracting := [0]
  lhsNonContracting := [0]
  rhsNonContracting := [1]
  lhsBatch := []
  rhsBatch := []
  wf := dot_S16384x1024_S1024x4256_S16384x4256_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.Spec.lean ====
/-
  The mathematics of one batch row of a Mamba-2 dynamics step with sequence length one, on the extended reals.

  A row's state entries (256) and action entries (64) are joined into 320 numbers, sent through an input
  layer (`x0`), then through one wide projection (`proj`, 4256 columns: a gate `z` of 2048, the channels
  `x`, `B`, `C` of 2048 + 64 + 64 and a step `dt` of 32).  With a single time step the causal depthwise
  convolution keeps its last tap only, so the channels become `silu (u · w + b)` (`xbc`); the selective scan
  from a zero state collapses to `y = x · (dt · ⟨B, C⟩) + D · x` head by head (`ssm`, 32 heads of 64
  channels); the gate multiplies in (`gated`), a root-mean-square normalisation follows (`normed`), and two
  more linear layers give the 256 outputs (`out`).
-/
import Idealize.ShloMosaic.PureOps.Ideal
import Idealize.ShloMosaic.Lib.ValueIdx

noncomputable section

namespace Cert.Spec

open Idealize.ShloMosaic Idealize.ShloMosaic.ValueIdx

/-- The weights of the step, each as a function of its coordinates. `cw` is the last tap of the
    convolution's weight. -/
structure Weights where
  Win : Fin 320 → Fin 1024 → EReal
  bin : Fin 1024 → EReal
  Wp : Fin 1024 → Fin 4256 → EReal
  cw : Fin 2176 → EReal
  cb : Fin 2176 → EReal
  dtb : Fin 32 → EReal
  D : Fin 32 → EReal
  nw : Fin 2048 → EReal
  Wop : Fin 2048 → Fin 1024 → EReal
  Wo : Fin 1024 → Fin 256 → EReal
  bo : Fin 256 → EReal

/-- Column of the gate `z` in the wide projection. -/
def colZ (j : Fin 2048) : Fin 4256 := ⟨j.val, by have := j.isLt; omega⟩
/-- Column of convolved channel `j` in the wide projection. -/
def colX (j : Fin 2176) : Fin 4256 := ⟨2048 + j.val, by have := j.isLt; omega⟩
/-- Column of head `h`'s step in the wide projection. -/
def colDt (h : Fin 32) : Fin 4256 := ⟨4224 + h.val, by have := h.isLt; omega⟩
/-- The convolved channel holding `x`'s entry `j`. -/
def chX (j : Fin 2048) : Fin 2176 := ⟨j.val, by have := j.isLt; omega⟩
/-- The convolved channel holding `B`'s entry `n`. -/
def chB (n : Fin 64) : Fin 2176 := ⟨2048 + n.val, by have := n.isLt; omega⟩
/-- The convolved channel holding `C`'s entry `n`. -/
def chC (n : Fin 64) : Fin 2176 := ⟨2112 + n.val, by have := n.isLt; omega⟩
/-- The head a channel of `x` belongs to. -/
def head (j : Fin 2048) : Fin 32 := ⟨j.val / 64, by have := j.isLt; omega⟩
/-- Row of the input layer's weight that meets state entry `s`. -/
def rowS (s : Fin 256) : Fin 320 := ⟨s.val, by have := s.isLt; omega⟩
/-- Row of the input layer's weight that meets action entry `a`. -/
def rowA (a : Fin 64) : Fin 320 := ⟨256 + a.val, by have := a.isLt; omega⟩

/-- The state entries followed by the action entries. -/
def cat (s : Fin 256 → EReal) (a : Fin 64 → EReal) (j : Fin 320) : EReal :=
  if h : j.val < 256 then s ⟨j.val, h⟩ else a ⟨j.val - 256, by have := j.isLt; omega⟩

/-- `x · σ(x)`. -/
def silu (x : EReal) : EReal := x * Ideal.logistic x

/-- `log (1 + eˣ)` in its stable form `max x 0 + log1p (e^{-|x|})`. -/
def softplus (x : EReal) : EReal := max x 0 + Ideal.log1p (Ideal.exp (-(max x (-x))))

variable (W : Weights) (s : Fin 256 → EReal) (a : Fin 64 → EReal)

/-- The input layer. -/
def x0 (k : Fin 1024) : EReal := (∑ j : Fin 320, cat s a j * W.Win j k) + W.bin k
/-- The wide projection. -/
def proj (c : Fin 4256) : EReal := ∑ k : Fin 1024, x0 W s a k * W.Wp k c
/-- The convolved and activated channels. -/
def xbc (j : Fin 2176) : EReal := silu (proj W s a (colX j) * W.cw j + W.cb j)
/-- The step sizes. -/
def dt (h : Fin 32) : EReal := softplus (proj W s a (colDt h) + W.dtb h)
/-- `⟨B, C⟩`. -/
def bc : EReal := ∑ n : Fin 64, xbc W s a (chB n) * xbc W s a (chC n)
/-- The collapsed scan. -/
def ssm (j : Fin 2048) : EReal :=
  xbc W s a (chX j) * (dt W s a (head j) * bc W s a) + W.D (head j) * xbc W s a (chX j)
/-- The gated value. -/
def gated (j : Fin 2048) : EReal := ssm W s a j * silu (proj W s a (colZ j))
/-- Mean of squares plus epsilon (2048 and the epsilon as the float words both programs carry). -/
def meanSq : EReal :=
  Ideal.div (∑ j : Fin 2048, gated W s a j * gated W s a j) (Ideal.ofBits .f32 0x45000000#32) + Ideal.ofBits .f32 0x3727C5AC#32
/-- The normalised value. -/
def normed (j : Fin 2048) : EReal := gated W s a j * Ideal.rsqrt (meanSq W s a) * W.nw j
/-- The output projection. -/
def out1 (k : Fin 1024) : EReal := ∑ j : Fin 2048, normed W s a j * W.Wop j k
/-- The output layer. -/
def out (q : Fin 256) : EReal := (∑ k : Fin 1024, out1 W s a k * W.Wo k q) + W.bo q

/-- The weights read off the argument arrays. -/
def weightsOf (W_in : (⟨2, ![320, 1024]⟩ : Shape).Idx → EReal) (b_in : (⟨1, ![1024]⟩ : Shape).Idx → EReal)
    (W_inproj : (⟨2, ![1024, 4256]⟩ : Shape).Idx → EReal) (conv_w : (⟨2, ![2176, 4]⟩ : Shape).Idx → EReal)
    (conv_b : (⟨1, ![2176]⟩ : Shape).Idx → EReal) (dt_bias : (⟨1, ![32]⟩ : Shape).Idx → EReal)
    (D : (⟨1, ![32]⟩ : Shape).Idx → EReal) (norm_w : (⟨1, ![2048]⟩ : Shape).Idx → EReal)
    (W_outproj : (⟨2, ![2048, 1024]⟩ : Shape).Idx → EReal) (W_out : (⟨2, ![1024, 256]⟩ : Shape).Idx → EReal)
    (b_out : (⟨1, ![256]⟩ : Shape).Idx → EReal) : Weights where
  Win j k := W_in (ix2 j k)
  bin k := b_in (ix1 k)
  Wp k c := W_inproj (ix2 k c)
  cw j := conv_w (ix2 j (3 : Fin 4))
  cb j := conv_b (ix1 j)
  dtb h := dt_bias (ix1 h)
  D h := D (ix1 h)
  nw j := norm_w (ix1 j)
  Wop j k := W_outproj (ix2 j k)
  Wo k q := W_out (ix2 k q)
  bo q := b_out (ix1 q)

/-- The whole result array: row `i 0`'s output `i 1`. -/
def G (W : Weights) (state : (⟨2, ![16384, 256]⟩ : Shape).Idx → EReal) (action : (⟨2, ![16384, 64]⟩ : Shape).Idx → EReal) :
    (⟨2, ![16384, 256]⟩ : Shape).Idx → EReal :=
  fun i => out W (fun s => state (ix2 (i 0) s)) (fun a => action (ix2 (i 0) a)) (i 1)

end Cert.Spec

end
-- ==== Proof.LibRealEntries.lean ====
/-
  Extended reals that are real numbers, and the distributive law they rescue.

  On the extended reals `x · (a + b) = x · a + x · b` fails in general (take `x = ⊤`, `a = 2`, `b = -1`), but it holds
  as soon as `x` and `b` are real numbers, whatever `a` is: for `a = ±∞` both sides are `x · a` (or `0` when `x = 0`).
  Sums and products of real entries are real, and the coercion from the reals commutes with finite sums.
-/
import Mathlib

noncomputable section

namespace Cert.LibRealEntries

/-- The extended real is a real number. -/
def IsReal (x : EReal) : Prop := ∃ r : ℝ, x = (r : EReal)

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem coe_sum {ι : Type*} (t : Finset ι) (g : ι → ℝ) :
    (∑ i ∈ t, ((g i : ℝ) : EReal)) = ((∑ i ∈ t, g i : ℝ) : EReal) := by
  classical
  induction t using Finset.induction_on with
  | empty => simp
  | insert a t ha ih => rw [Finset.sum_insert ha, Finset.sum_insert ha, ih, EReal.coe_add]

theorem IsReal.sum {ι : Type*} [Fintype ι] (f : ι → EReal) (h : ∀ i, IsReal (f i)) : IsReal (∑ i, f i) := by
  choose g hg using h
  exact ⟨∑ i, g i, by rw [← coe_sum]; exact Finset.sum_congr rfl fun i _ => hg i⟩

/-- `x · (a + b) = x · a + b · x` for real `x` and `b` and any extended real `a`. -/
theorem mul_add_of_real {x a b : EReal} (hx : IsReal x) (hb : IsReal b) : x * (a + b) = x * a + b * x := by
  obtain ⟨r, rfl⟩ := hx; obtain ⟨s, rfl⟩ := hb
  induction a using EReal.rec with
  | bot =>
    rw [EReal.bot_add]
    rcases lt_trichotomy r 0 with h | h | h
    · rw [EReal.coe_mul_bot_of_neg h, ← EReal.coe_mul, EReal.top_add_coe]
    · subst h; rw [EReal.coe_zero, zero_mul, mul_zero, add_zero]
    · rw [EReal.coe_mul_bot_of_pos h, EReal.bot_add]
  | coe t =>
    rw [← EReal.coe_add, ← EReal.coe_mul, ← EReal.coe_mul, ← EReal.coe_mul, ← EReal.coe_add]
    congr 1; ring
  | top =>
    rw [EReal.top_add_coe]
    rcases lt_trichotomy r 0 with h | h | h
    · rw [EReal.coe_mul_top_of_neg h, EReal.bot_add]
    · subst h; rw [EReal.coe_zero, zero_mul, mul_zero, add_zero]
    · rw [EReal.coe_mul_top_of_pos h, ← EReal.coe_mul, EReal.top_add_coe]

end Cert.LibRealEntries

end
-- ==== Proof.RowAlgebra.lean ====
/-
  The row computation in the arrangement the kernel uses, and why it is the specification's.

  The kernel receives the input layer's weight split in two at the state/action boundary, the wide projection
  cut into five slabs (the three narrow ones padded with zero columns to 128 lanes), the convolution's last
  tap and bias cut and padded the same way, `D` repeated 64 times, and a zero-one matrix `rep` whose row `h`
  marks the channels of head `h`.  It forms `⟨B, C⟩` over 128 lanes, spreads `dt · ⟨B, C⟩` to the channels
  by a product with `rep`, and computes `x · (spread + D)`.  Against the specification:
  a sum over 320 = 256 + 64 indices is the sum of the two partial sums; a padded lane holds
  `silu (u · 0 + 0) = 0`, so the 128-lane inner product is the 64-lane one; a product with a zero-one row
  selects one entry (`v · 0 = 0` and `v · 1 = v` for every extended real `v`); and
  `x · (a + b) = x · a + b · x` holds on the extended reals as soon as `x` and `b` are real numbers, whatever
  `a` is — this is the one place where finiteness of the inputs is used.
-/
import Mathlib
import proofs.«173860_j17403207483676_2_alg».proof.Proof.Spec
import proofs.«173860_j17403207483676_2_alg».proof.Proof.LibRealEntries

noncomputable section

namespace Cert.RowAlgebra

open Idealize.ShloMosaic Cert.Spec Cert.LibRealEntries

/-! ## The activation of a real number is real -/

theorem IsReal.silu {x : EReal} (hx : IsReal x) : IsReal (silu x) := by
  obtain ⟨r, rfl⟩ := hx
  exact IsReal.mul ⟨r, rfl⟩ ⟨_, Ideal.logistic_coe r⟩

/-! ## The three sum laws -/

/-- A sum over the joined state and action entries is the sum over the state entries plus the sum over the
    action entries. -/
theorem sum_cat (s : Fin 256 → EReal) (a : Fin 64 → EReal) (f : Fin 320 → EReal) :
    ∑ j : Fin 320, cat s a j * f j = (∑ i : Fin 256, s i * f (rowS i)) + ∑ i : Fin 64, a i * f (rowA i) := by
  refine (Fin.sum_univ_add (a := 256) (b := 64) (fun j : Fin (256 + 64) => cat s a j * f j)).trans ?_
  congr 1

/-- A sum over 128 lanes whose upper 64 entries vanish is the sum over the lower 64. -/
theorem sum_padded (f : Fin 128 → EReal) (hz : ∀ n : Fin 128, 64 ≤ n.val → f n = 0) :
    ∑ n : Fin 128, f n = ∑ n : Fin 64, f ⟨n.val, by have := n.isLt; omega⟩ := by
  refine (Fin.sum_univ_add (a := 64) (b := 64) (fun n : Fin (64 + 64) => f n)).trans ?_
  have h2 : ∑ i : Fin 64, f (Fin.natAdd 64 i : Fin (64 + 64)) = 0 :=
    Finset.sum_eq_zero fun i _ => hz _ (by show 64 ≤ 64 + i.val; omega)
  rw [h2, add_zero]
  exact Finset.sum_congr rfl fun i _ => congrArg f (Fin.ext rfl)

/-- A product with a zero-one row selects one entry. -/
theorem sum_onehot (g : Fin 32 → EReal) (h0 : Fin 32) :
    ∑ h : Fin 32, g h * (if h = h0 then (1 : EReal) else 0) = g h0 := by
  rw [Finset.sum_eq_single h0]
  · rw [if_pos rfl, mul_one]
  · intro b _ hb; rw [if_neg hb, mul_zero]
  · intro h; exact absurd (Finset.mem_univ _) h

end Cert.RowAlgebra

end
-- ==== Proof.KernelRow.lean ====
/-
  One row in the kernel's arrangement (`K.out`), over the window contents as the kernel receives them, and
  the theorem that it is the specification's row (`K.out_eq`) when the windows hold the prepared weights
  (`Prepared`) and the weights and the row are real numbers.
-/
import proofs.«173860_j17403207483676_2_alg».proof.Proof.RowAlgebra

noncomputable section

namespace Cert.KernelRow

open Idealize.ShloMosaic Cert.Spec Cert.RowAlgebra Cert.LibRealEntries

/-- What the kernel's weight windows hold, each as a function of its coordinates. -/
structure Windows where
  ws : Fin 256 → Fin 1024 → EReal
  wa : Fin 64 → Fin 1024 → EReal
  bin : Fin 1024 → EReal
  wz : Fin 1024 → Fin 2048 → EReal
  wx : Fin 1024 → Fin 2048 → EReal
  cwx : Fin 2048 → EReal
  cbx : Fin 2048 → EReal
  wB : Fin 1024 → Fin 128 → EReal
  cwB : Fin 128 → EReal
  cbB : Fin 128 → EReal
  wC : Fin 1024 → Fin 128 → EReal
  cwC : Fin 128 → EReal
  cbC : Fin 128 → EReal
  wdt : Fin 1024 → Fin 128 → EReal
  dtb : Fin 32 → EReal
  rep : Fin 32 → Fin 2048 → EReal
  dfull : Fin 2048 → EReal
  nw : Fin 2048 → EReal
  wop : Fin 2048 → Fin 1024 → EReal
  wo : Fin 1024 → Fin 256 → EReal
  bo : Fin 256 → EReal

/-- Lane `h` of the 32 step lanes inside the padded 128. -/
def lane (h : Fin 32) : Fin 128 := ⟨h.val, by have := h.isLt; omega⟩

namespace K

variable (Q : Windows) (s : Fin 256 → EReal) (a : Fin 64 → EReal)

def x0 (k : Fin 1024) : EReal := (∑ i : Fin 256, s i * Q.ws i k) + (∑ i : Fin 64, a i * Q.wa i k) + Q.bin k
def z (j : Fin 2048) : EReal := ∑ k : Fin 1024, x0 Q s a k * Q.wz k j
def x (j : Fin 2048) : EReal := silu ((∑ k : Fin 1024, x0 Q s a k * Q.wx k j) * Q.cwx j + Q.cbx j)
def B (n : Fin 128) : EReal := silu ((∑ k : Fin 1024, x0 Q s a k * Q.wB k n) * Q.cwB n + Q.cbB n)
def C (n : Fin 128) : EReal := silu ((∑ k : Fin 1024, x0 Q s a k * Q.wC k n) * Q.cwC n + Q.cbC n)
def dt (h : Fin 32) : EReal := softplus ((∑ k : Fin 1024, x0 Q s a k * Q.wdt k (lane h)) + Q.dtb h)
def bc : EReal := ∑ n : Fin 128, B Q s a n * C Q s a n
def spread (j : Fin 2048) : EReal := ∑ h : Fin 32, (dt Q s a h * bc Q s a) * Q.rep h j
def y (j : Fin 2048) : EReal := x Q s a j * (spread Q s a j + Q.dfull j)
def g (j : Fin 2048) : EReal := y Q s a j * silu (z Q s a j)
def ms : EReal :=
  Ideal.div (∑ j : Fin 2048, g Q s a j * g Q s a j) (Ideal.ofBits .f32 0x45000000#32) + Ideal.ofBits .f32 0x3727C5AC#32
def nrm (j : Fin 2048) : EReal := g Q s a j * Ideal.rsqrt (ms Q s a) * Q.nw j
def o1 (k : Fin 1024) : EReal := ∑ j : Fin 2048, nrm Q s a j * Q.wop j k
def out (q : Fin 256) : EReal := (∑ k : Fin 1024, o1 Q s a k * Q.wo k q) + Q.bo q

end K

/-- The windows hold the weights as the wrapper prepares them. -/
structure Prepared (Q : Windows) (W : Weights) : Prop where
  ws : ∀ i k, Q.ws i k = W.Win (rowS i) k
  wa : ∀ i k, Q.wa i k = W.Win (rowA i) k
  bin : ∀ k, Q.bin k = W.bin k
  wz : ∀ k j, Q.wz k j = W.Wp k (colZ j)
  wx : ∀ k j, Q.wx k j = W.Wp k (colX (chX j))
  cwx : ∀ j, Q.cwx j = W.cw (chX j)
  cbx : ∀ j, Q.cbx j = W.cb (chX j)
  wB : ∀ k (n : Fin 128), Q.wB k n = if hn : n.val < 64 then W.Wp k (colX (chB ⟨n.val, hn⟩)) else 0
  cwB : ∀ n : Fin 128, Q.cwB n = if hn : n.val < 64 then W.cw (chB ⟨n.val, hn⟩) else 0
  cbB : ∀ n : Fin 128, Q.cbB n = if hn : n.val < 64 then W.cb (chB ⟨n.val, hn⟩) else 0
  wC : ∀ k (n : Fin 128), Q.wC k n = if hn : n.val < 64 then W.Wp k (colX (chC ⟨n.val, hn⟩)) else 0
  cwC : ∀ n : Fin 128, Q.cwC n = if hn : n.val < 64 then W.cw (chC ⟨n.val, hn⟩) else 0
  cbC : ∀ n : Fin 128, Q.cbC n = if hn : n.val < 64 then W.cb (chC ⟨n.val, hn⟩) else 0
  wdt : ∀ k (n : Fin 128) (hn : n.val < 32), Q.wdt k n = W.Wp k (colDt ⟨n.val, hn⟩)
  dtb : ∀ h, Q.dtb h = W.dtb h
  rep : ∀ h j, Q.rep h j = if h = head j then (1 : EReal) else 0
  dfull : ∀ j, Q.dfull j = W.D (head j)
  nw : ∀ j, Q.nw j = W.nw j
  wop : ∀ j k, Q.wop j k = W.Wop j k
  wo : ∀ k q, Q.wo k q = W.Wo k q
  bo : ∀ q, Q.bo q = W.bo q

/-- Every weight the channels `x` and the skip `D` depend on is a real number. -/
structure RealWeights (W : Weights) : Prop where
  Win : ∀ j k, IsReal (W.Win j k)
  bin : ∀ k, IsReal (W.bin k)
  Wp : ∀ k c, IsReal (W.Wp k c)
  cw : ∀ j, IsReal (W.cw j)
  cb : ∀ j, IsReal (W.cb j)
  D : ∀ h, IsReal (W.D h)

section
variable {Q : Windows} {W : Weights} (hQ : Prepared Q W) (s : Fin 256 → EReal) (a : Fin 64 → EReal)
include hQ

theorem x0_eq (k : Fin 1024) : K.x0 Q s a k = Spec.x0 W s a k := by
  unfold K.x0 Spec.x0
  rw [sum_cat]
  simp only [hQ.ws, hQ.wa, hQ.bin]

theorem z_eq (j : Fin 2048) : K.z Q s a j = proj W s a (colZ j) := by
  unfold K.z proj
  simp only [x0_eq hQ, hQ.wz]

theorem x_eq (j : Fin 2048) : K.x Q s a j = xbc W s a (chX j) := by
  unfold K.x xbc proj
  simp only [x0_eq hQ, hQ.wx, hQ.cwx, hQ.cbx]

theorem B_lo (n : Fin 128) (hn : n.val < 64) : K.B Q s a n = xbc W s a (chB ⟨n.val, hn⟩) := by
  unfold K.B xbc proj
  simp only [x0_eq hQ, hQ.wB, hQ.cwB, hQ.cbB, dif_pos hn]

theorem B_hi (n : Fin 128) (hn : 64 ≤ n.val) : K.B Q s a n = 0 := by
  unfold K.B
  rw [hQ.cwB, hQ.cbB, dif_neg (by omega), dif_neg (by omega), mul_zero, add_zero]
  unfold silu
  rw [zero_mul]

theorem C_lo (n : Fin 128) (hn : n.val < 64) : K.C Q s a n = xbc W s a (chC ⟨n.val, hn⟩) := by
  unfold K.C xbc proj
  simp only [x0_eq hQ, hQ.wC, hQ.cwC, hQ.cbC, dif_pos hn]

theorem bc_eq : K.bc Q s a = Spec.bc W s a := by
  unfold K.bc Spec.bc
  rw [sum_padded _ (fun n hn => by rw [B_hi hQ s a n hn, zero_mul])]
  refine Finset.sum_congr rfl fun n _ => ?_
  rw [B_lo hQ s a _ (by show n.val < 64; exact n.isLt), C_lo hQ s a _ (by show n.val < 64; exact n.isLt)]

theorem dt_eq (h : Fin 32) : K.dt Q s a h = Spec.dt W s a h := by
  unfold K.dt Spec.dt proj
  simp only [x0_eq hQ, hQ.wdt _ (lane h) h.isLt, hQ.dtb]
  rfl

theorem spread_eq (j : Fin 2048) : K.spread Q s a j = Spec.dt W s a (head j) * Spec.bc W s a := by
  unfold K.spread
  simp only [hQ.rep]
  rw [sum_onehot (fun h => K.dt Q s a h * K.bc Q s a) (head j), dt_eq hQ, bc_eq hQ]

end

theorem cat_real {s : Fin 256 → EReal} {a : Fin 64 → EReal} (hs : ∀ i, IsReal (s i)) (ha : ∀ i, IsReal (a i))
    (j : Fin 320) : IsReal (cat s a j) := by
  unfold cat
  split
  · exact hs _
  · exact ha _

theorem xbc_real {W : Weights} (hW : RealWeights W) {s : Fin 256 → EReal} {a : Fin 64 → EReal}
    (hs : ∀ i, IsReal (s i)) (ha : ∀ i, IsReal (a i)) (j : Fin 2176) : IsReal (xbc W s a j) := by
  unfold xbc proj Spec.x0
  exact IsReal.silu (IsReal.add (IsReal.mul (IsReal.sum _ fun k => IsReal.mul
    (IsReal.add (IsReal.sum _ fun i => IsReal.mul (cat_real hs ha i) (hW.Win i k)) (hW.bin k)) (hW.Wp k _)) (hW.cw j)) (hW.cb j))

/-- The kernel's row is the specification's. -/
theorem K.out_eq {Q : Windows} {W : Weights} (hQ : Prepared Q W) (hW : RealWeights W)
    {s : Fin 256 → EReal} {a : Fin 64 → EReal} (hs : ∀ i, IsReal (s i)) (ha : ∀ i, IsReal (a i)) (q : Fin 256) :
    K.out Q s a q = Spec.out W s a q := by
  have hy : ∀ j, K.y Q s a j = ssm W s a j := fun j => by
    unfold K.y ssm
    rw [spread_eq hQ, x_eq hQ, hQ.dfull, mul_add_of_real (xbc_real hW hs ha _) (hW.D _)]
  have hg : ∀ j, K.g Q s a j = gated W s a j := fun j => by
    unfold K.g gated
    rw [hy, z_eq hQ]
  have hms : K.ms Q s a = meanSq W s a := by
    unfold K.ms meanSq
    simp only [hg]
  have hn : ∀ j, K.nrm Q s a j = normed W s a j := fun j => by
    unfold K.nrm normed
    rw [hg, hms, hQ.nw]
  have ho1 : ∀ k, K.o1 Q s a k = out1 W s a k := fun k => by
    unfold K.o1 out1
    simp only [hn, hQ.wop]
  unfold K.out Spec.out
  simp only [ho1, hQ.wo, hQ.bo]

end Cert.KernelRow

end
-- ==== Proof.Payload.lean ====
/-
  The kernel body's stored value, read at one entry.

  The body computes, for the 256 rows of a block at once, exactly the row computation of `KernelRow`: every
  matrix product into a zero accumulator is a sum over the contracted coordinate, a lane reduction is a sum
  over the lanes, a change of float format is the identity, a one-row weight is broadcast down the rows, and
  the guard the stable softplus carries for a not-a-number input never fires on the extended reals.  So entry
  `(p, q)` of the stored block is `K.out` of row `p` of the state and action blocks, over the window contents.
-/
import proofs.«173860_j17403207483676_2_alg».proof.Proof.Gen.KernelIdeal.Skeleton
import proofs.«173860_j17403207483676_2_alg».proof.Proof.LibMatProduct
import proofs.«173860_j17403207483676_2_alg».proof.Proof.LibRowReduce
import proofs.«173860_j17403207483676_2_alg».proof.Proof.LibKeepdims
import proofs.«173860_j17403207483676_2_alg».proof.Proof.KernelRow
import Idealize.ShloMosaic.Lib.ValueLayout
import Idealize.ShloMosaic.Lib.Pipeline.Value

noncomputable section

namespace Cert.Payload

open Cert.KernelIdeal Cert.KernelIdeal.Gen Idealize.ShloMosaic Idealize.ShloMosaic.ValueIdx Cert.Spec Cert.KernelRow

/-! ## Operations read at an index -/

/-- Entry `(p, q)` of `[n, k] · [k, o]` into a zero accumulator, at any precision. -/
theorem mm {n k o : ℕ} {φ₁ φ₂ : FTy} (d : DotDims ⟨2, ![n, k]⟩ ⟨2, ![k, o]⟩ ⟨2, ![n, o]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ φ₁) (W : FVec Ideal ⟨2, ![k, o]⟩ φ₂) (p : Fin n) (q : Fin o) :
    matmul d prec X W (constant ⟨2, ![n, o]⟩ .f32 0x00000000#32) (ix2 p q) = ∑ h : Fin k, X (ix2 p h) * W (ix2 h q) :=
  Cert.LibMatProduct.matmul_zero_apply d prec hlc hrc hln hrn hlb hrb X W p q

/-- The lane sum of a matrix from the zero word, at row `r`. -/
theorem laneSum {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (r : Fin a) :
    multiReduction .add [1] ⟨1, ![a]⟩ src 0x00000000#32 h hφ hacc (ix1 r) = ∑ c : Fin b, src (ix2 r c) :=
  Cert.LibRowReduce.rowSum_apply src _ h hφ hacc r

theorem logistic_at {s : Shape} {φ : FTy} (v : FVec Ideal s φ) (i : s.Idx) : logistic v i = Ideal.logistic (v i) := rfl
theorem log1p_at {s : Shape} {φ : FTy} (v : FVec Ideal s φ) (i : s.Idx) : log1p v i = Ideal.log1p (v i) := rfl
theorem exp_at {s : Shape} {φ : FTy} (v : FVec Ideal s φ) (i : s.Idx) : exp v i = Ideal.exp (v i) := rfl
theorem rsqrt_at {s : Shape} {φ : FTy} (v : FVec Ideal s φ) (i : s.Idx) : rsqrt v i = Ideal.rsqrt (v i) := rfl
theorem absf_at {s : Shape} {φ : FTy} (v : FVec Ideal s φ) (i : s.Idx) : absf v i = max (v i) (-(v i)) := rfl
theorem zero_word : (Scalar.ofBits (F := Ideal) .f32 0x00000000#32 : EReal) = 0 := Ideal.ofBits_zero_f32

/-- A value compared with itself for "ordered and different" answers no. -/
theorem cmp_one_self (x : EReal) : Ideal.cmp .one x x = 0#1 := by simp [Ideal.cmp]

/-! ## The window contents as functions of their coordinates -/

/-- The weight windows' blocks, each as a function of its coordinates. -/
abbrev windowsOf (P2 : Vec Ideal S256x1024 .bf16) (P3 : Vec Ideal S64x1024 .bf16) (P4 : Vec Ideal S1x1024 .f32)
    (P5 P6 : Vec Ideal S1024x2048 .bf16) (P7 P8 : Vec Ideal S1x2048 .f32)
    (P9 : Vec Ideal S1024x128 .bf16) (P10 P11 : Vec Ideal S1x128 .f32)
    (P12 : Vec Ideal S1024x128 .bf16) (P13 P14 : Vec Ideal S1x128 .f32)
    (P15 : Vec Ideal S1024x128 .bf16) (P16 : Vec Ideal S1x32 .f32) (P17 : Vec Ideal S32x2048 .f32)
    (P18 P19 : Vec Ideal S1x2048 .f32) (P20 : Vec Ideal S2048x1024 .bf16) (P21 : Vec Ideal S1024x256 .bf16)
    (P22 : Vec Ideal S1x256 .f32) : Windows where
  ws i k := P2 (ix2 i k)
  wa i k := P3 (ix2 i k)
  bin k := P4 (ix2 (0 : Fin 1) k)
  wz k j := P5 (ix2 k j)
  wx k j := P6 (ix2 k j)
  cwx j := P7 (ix2 (0 : Fin 1) j)
  cbx j := P8 (ix2 (0 : Fin 1) j)
  wB k n := P9 (ix2 k n)
  cwB n := P10 (ix2 (0 : Fin 1) n)
  cbB n := P11 (ix2 (0 : Fin 1) n)
  wC k n := P12 (ix2 k n)
  cwC n := P13 (ix2 (0 : Fin 1) n)
  cbC n := P14 (ix2 (0 : Fin 1) n)
  wdt k n := P15 (ix2 k n)
  dtb h := P16 (ix2 (0 : Fin 1) h)
  rep h j := P17 (ix2 h j)
  dfull j := P18 (ix2 (0 : Fin 1) j)
  nw j := P19 (ix2 (0 : Fin 1) j)
  wop j k := P20 (ix2 j k)
  wo k q := P21 (ix2 k q)
  bo q := P22 (ix2 (0 : Fin 1) q)

/-! ## The input layer and the five projections -/

section stages
variable (P0 : Vec Ideal S256x256 .f32) (P1 : Vec Ideal S256x64 .f32) (P2 : Vec Ideal S256x1024 .bf16) (P3 : Vec Ideal S64x1024 .bf16) (P4 : Vec Ideal S1x1024 .f32)

/-- The input layer of row `p`. -/
theorem inLayer_at (p : Fin 256) (k : Fin 1024) :
    k0_pay2 (F := Ideal) P0 P1 P2 P3 P4 (ix2 p k)
      = (∑ i : Fin 256, P0 (ix2 p i) * P2 (ix2 i k)) + (∑ i : Fin 64, P1 (ix2 p i) * P3 (ix2 i k)) + P4 (ix2 (0 : Fin 1) k) := by
  unfold k0_pay2
  rw [truncf_apply, addf_apply, addf_apply, shapeCast_self, shapeCast_self, shapeCast_self]
  rw [mm _ _ rfl rfl rfl rfl rfl rfl, mm _ _ rfl rfl rfl rfl rfl rfl, broadcastTo_1b_ab_apply]
  simp only [truncf_apply]

theorem projZ_at (P5 : Vec Ideal S1024x2048 .bf16) (p : Fin 256) (j : Fin 2048) :
    k0_pay3 (F := Ideal) P0 P1 P2 P3 P4 P5 (ix2 p j) = ∑ k : Fin 1024, k0_pay2 (F := Ideal) P0 P1 P2 P3 P4 (ix2 p k) * P5 (ix2 k j) := by
  unfold k0_pay3
  rw [shapeCast_self, mm _ _ rfl rfl rfl rfl rfl rfl]

theorem projX_at (P6 : Vec Ideal S1024x2048 .bf16) (p : Fin 256) (j : Fin 2048) :
    k0_pay4 (F := Ideal) P0 P1 P2 P3 P4 P6 (ix2 p j) = ∑ k : Fin 1024, k0_pay2 (F := Ideal) P0 P1 P2 P3 P4 (ix2 p k) * P6 (ix2 k j) := by
  unfold k0_pay4
  rw [shapeCast_self, mm _ _ rfl rfl rfl rfl rfl rfl]

theorem projB_at (P9 : Vec Ideal S1024x128 .bf16) (p : Fin 256) (n : Fin 128) :
    k0_pay5 (F := Ideal) P0 P1 P2 P3 P4 P9 (ix2 p n) = ∑ k : Fin 1024, k0_pay2 (F := Ideal) P0 P1 P2 P3 P4 (ix2 p k) * P9 (ix2 k n) := by
  unfold k0_pay5
  rw [shapeCast_self, mm _ _ rfl rfl rfl rfl rfl rfl]

theorem projC_at (P12 : Vec Ideal S1024x128 .bf16) (p : Fin 256) (n : Fin 128) :
    k0_pay6 (F := Ideal) P0 P1 P2 P3 P4 P12 (ix2 p n) = ∑ k : Fin 1024, k0_pay2 (F := Ideal) P0 P1 P2 P3 P4 (ix2 p k) * P12 (ix2 k n) := by
  unfold k0_pay6
  rw [shapeCast_self, mm _ _ rfl rfl rfl rfl rfl rfl]

theorem projDt_at (P15 : Vec Ideal S1024x128 .bf16) (p : Fin 256) (n : Fin 128) :
    k0_pay7 (F := Ideal) P0 P1 P2 P3 P4 P15 (ix2 p n) = ∑ k : Fin 1024, k0_pay2 (F := Ideal) P0 P1 P2 P3 P4 (ix2 p k) * P15 (ix2 k n) := by
  unfold k0_pay7
  rw [shapeCast_self, mm _ _ rfl rfl rfl rfl rfl rfl]

end stages

/-! ## The convolution's last tap and the activation -/

theorem convX_at (v21 : FVec Ideal S256x2048 .f32) (P7 P8 : Vec Ideal S1x2048 .f32) (p : Fin 256) (j : Fin 2048) :
    k0_pay8 (F := Ideal) v21 P7 P8 (ix2 p j) = silu (v21 (ix2 p j) * P7 (ix2 (0 : Fin 1) j) + P8 (ix2 (0 : Fin 1) j)) := by
  unfold k0_pay8
  rw [mulf_apply, logistic_at, addf_apply, mulf_apply, broadcastTo_1b_ab_apply, broadcastTo_1b_ab_apply, shapeCast_self, shapeCast_self]
  rfl

theorem convB_at (v24 : FVec Ideal S256x128 .f32) (P10 P11 : Vec Ideal S1x128 .f32) (p : Fin 256) (n : Fin 128) :
    k0_pay9 (F := Ideal) v24 P10 P11 (ix2 p n) = silu (v24 (ix2 p n) * P10 (ix2 (0 : Fin 1) n) + P11 (ix2 (0 : Fin 1) n)) := by
  unfold k0_pay9
  rw [mulf_apply, logistic_at, addf_apply, mulf_apply, broadcastTo_1b_ab_apply, broadcastTo_1b_ab_apply, shapeCast_self, shapeCast_self]
  rfl

theorem convC_at (v27 : FVec Ideal S256x128 .f32) (P13 P14 : Vec Ideal S1x128 .f32) (p : Fin 256) (n : Fin 128) :
    k0_pay10 (F := Ideal) v27 P13 P14 (ix2 p n) = silu (v27 (ix2 p n) * P13 (ix2 (0 : Fin 1) n) + P14 (ix2 (0 : Fin 1) n)) := by
  unfold k0_pay10
  rw [mulf_apply, logistic_at, addf_apply, mulf_apply, broadcastTo_1b_ab_apply, broadcastTo_1b_ab_apply, shapeCast_self, shapeCast_self]
  rfl

/-! ## The step size -/

theorem stepPre_at (v30 : FVec Ideal S256x128 .f32) (P16 : Vec Ideal S1x32 .f32) (p : Fin 256) (h : Fin 32) :
    k0_pay11 (F := Ideal) v30 P16 (ix2 p h) = v30 (ix2 p (lane h)) + P16 (ix2 (0 : Fin 1) h) := by
  unfold k0_pay11
  rw [addf_apply, broadcastTo_1b_ab_apply, shapeCast_self, slice2_axis1_apply 0 v30 _ p h (lane h) (by show h.val = 0 + h.val; omega)]

/-- The guarded stable softplus of the kernel is `softplus`. -/
theorem step_at (v30 : FVec Ideal S256x128 .f32) (P16 : Vec Ideal S1x32 .f32) (p : Fin 256) (h : Fin 32) :
    Scalar.select (k0_pay14 (F := Ideal) v30 P16 (ix2 p h)) (k0_pay15 (F := Ideal) v30 P16 (ix2 p h))
        (k0_pay12 (F := Ideal) v30 P16 (ix2 p h) + Ideal.log1p (Ideal.exp (k0_pay16 (F := Ideal) v30 P16 (ix2 p h))))
      = softplus (v30 (ix2 p (lane h)) + P16 (ix2 (0 : Fin 1) h)) := by
  unfold k0_pay14 k0_pay15 k0_pay12 k0_pay16 k0_pay13
  rw [cmpf_apply, Ideal.cmpf_def, cmp_one_self, select_zero, maximumf_apply, subf_apply, absf_at, subf_apply,
    Ideal.ofBits_def, Ideal.ofBits_zero_f32, stepPre_at, broadcast_apply, sub_zero, sub_eq_add_neg, zero_add]
  rfl

/-! ## From the activated channels to the gated value, and from the gated value to the output -/

/-- The part of the body from the step sizes to the gated value. -/
def gatedBlock (v18 : FVec Ideal S256x2048 .f32) (v40 : FVec Ideal S256x2048 .f32) (v50 : FVec Ideal S256x128 .f32) (v60 : FVec Ideal S256x128 .f32) (v67 : FVec Ideal S256x32 .f32) (v70 : IVec S256x32 1) (v72 : FVec Ideal S256x32 .f32) (v75 : FVec Ideal S256x32 .f32) (v85 : Vec Ideal S32x2048 .f32) (v88 : Vec Ideal S1x2048 .f32) : FVec Ideal S256x2048 .f32 :=
  have v76 : FVec Ideal S256x32 .f32 := exp v75
  have v77 : FVec Ideal S256x32 .f32 := log1p v76
  have v78 : FVec Ideal S256x32 .f32 := addf v67 v77
  have v79 : FVec Ideal S256x32 .f32 := select v70 v72 v78
  have v80 : FVec Ideal S256x128 .f32 := mulf v50 v60
  have v81 : FVec Ideal S256 .f32 := multiReduction .add [1] S256 v80 0x00000000#32 reduces_S256x128_S256 (.inl rfl) rfl
  have v82 : FVec Ideal S256x1 .f32 := shapeCast S256x1 v81 shapeCasts_S256_S256x1
  have v83 : FVec Ideal S256x32 .f32 := broadcastTo S256x32 v82 broadcasts_S256x1_S256x32
  have v84 : FVec Ideal S256x32 .f32 := mulf v79 v83
  have v86 : FVec Ideal S32x2048 .f32 := shapeCast S32x2048 v85 shapeCasts_S32x2048_S32x2048
  have cst_44 : FVec Ideal S256x2048 .f32 := constant S256x2048 .f32 0x00000000#32
  have v87 : FVec Ideal S256x2048 .f32 := matmul dot_S256x32_S32x2048_S256x2048_1_0_0_1_n_n (some .fp32) v84 v86 cst_44
  have v89 : FVec Ideal S1x2048 .f32 := shapeCast S1x2048 v88 shapeCasts_S1x2048_S1x2048
  have v90 : FVec Ideal S256x2048 .f32 := broadcastTo S256x2048 v89 broadcasts_S1x2048_S256x2048
  have v91 : FVec Ideal S256x2048 .f32 := addf v87 v90
  have v92 : FVec Ideal S256x2048 .f32 := mulf v40 v91
  have v93 : FVec Ideal S256x2048 .f32 := logistic v18
  have v94 : FVec Ideal S256x2048 .f32 := mulf v18 v93
  have v95 : FVec Ideal S256x2048 .f32 := mulf v92 v94
  v95

/-- The part of the body from the gated value to the last product. -/
def outBlock (v95 : FVec Ideal S256x2048 .f32) (v106 : Vec Ideal S1x2048 .f32) (v111 : Vec Ideal S2048x1024 .bf16) (v115 : Vec Ideal S1024x256 .bf16) : FVec Ideal S256x256 .f32 :=
  have v96 : FVec Ideal S256x2048 .f32 := mulf v95 v95
  have v97 : FVec Ideal S256 .f32 := multiReduction .add [1] S256 v96 0x00000000#32 reduces_S256x2048_S256 (.inl rfl) rfl
  have v98 : FVec Ideal S256x1 .f32 := shapeCast S256x1 v97 shapeCasts_S256_S256x1
  have cst_48 : Ideal .f32 := Scalar.ofBits .f32 0x45000000#32
  have v99 : FVec Ideal S256x1 .f32 := broadcast S256x1 cst_48
  have v100 : FVec Ideal S256x1 .f32 := divf v98 v99
  have cst_49 : Ideal .f32 := Scalar.ofBits .f32 0x3727C5AC#32
  have v101 : FVec Ideal S256x1 .f32 := broadcast S256x1 cst_49
  have v102 : FVec Ideal S256x1 .f32 := addf v100 v101
  have v103 : FVec Ideal S256x1 .f32 := rsqrt v102
  have v104 : FVec Ideal S256x2048 .f32 := broadcastTo S256x2048 v103 broadcasts_S256x1_S256x2048
  have v105 : FVec Ideal S256x2048 .f32 := mulf v95 v104
  have v107 : FVec Ideal S1x2048 .f32 := shapeCast S1x2048 v106 shapeCasts_S1x2048_S1x2048
  have v108 : FVec Ideal S256x2048 .f32 := broadcastTo S256x2048 v107 broadcasts_S1x2048_S256x2048
  have v109 : FVec Ideal S256x2048 .f32 := mulf v105 v108
  have v110 : FVec Ideal S256x2048 .bf16 := truncf .bf16 v109 bitsLt_bf16_f32
  have v112 : FVec Ideal S2048x1024 .bf16 := shapeCast S2048x1024 v111 shapeCasts_S2048x1024_S2048x1024
  have cst_54 : FVec Ideal S256x1024 .f32 := constant S256x1024 .f32 0x00000000#32
  have v113 : FVec Ideal S256x1024 .f32 := matmul dot_S256x2048_S2048x1024_S256x1024_1_0_0_1_n_n none v110 v112 cst_54
  have v114 : FVec Ideal S256x1024 .bf16 := truncf .bf16 v113 bitsLt_bf16_f32
  have v116 : FVec Ideal S1024x256 .bf16 := shapeCast S1024x256 v115 shapeCasts_S1024x256_S1024x256
  have cst_57 : FVec Ideal S256x256 .f32 := constant S256x256 .f32 0x00000000#32
  have v117 : FVec Ideal S256x256 .f32 := matmul dot_S256x1024_S1024x256_S256x256_1_0_0_1_n_n none v114 v116 cst_57
  v117

theorem body_split (v18 : FVec Ideal S256x2048 .f32) (v40 : FVec Ideal S256x2048 .f32) (v50 : FVec Ideal S256x128 .f32) (v60 : FVec Ideal S256x128 .f32) (v67 : FVec Ideal S256x32 .f32) (v70 : IVec S256x32 1) (v72 : FVec Ideal S256x32 .f32) (v75 : FVec Ideal S256x32 .f32) (v85 : Vec Ideal S32x2048 .f32) (v88 : Vec Ideal S1x2048 .f32) (v106 : Vec Ideal S1x2048 .f32) (v111 : Vec Ideal S2048x1024 .bf16) (v115 : Vec Ideal S1024x256 .bf16) :
    k0_pay17 (F := Ideal) v18 v40 v50 v60 v67 v70 v72 v75 v85 v88 v106 v111 v115
      = outBlock (gatedBlock v18 v40 v50 v60 v67 v70 v72 v75 v85 v88) v106 v111 v115 := rfl

/-- The gated value at `(p, j)`, over the block's activated channels, step pieces and gate. -/
theorem gated_at (v18 : FVec Ideal S256x2048 .f32) (v40 : FVec Ideal S256x2048 .f32) (v50 : FVec Ideal S256x128 .f32) (v60 : FVec Ideal S256x128 .f32) (v67 : FVec Ideal S256x32 .f32) (v70 : IVec S256x32 1) (v72 : FVec Ideal S256x32 .f32) (v75 : FVec Ideal S256x32 .f32) (v85 : Vec Ideal S32x2048 .f32) (v88 : Vec Ideal S1x2048 .f32) (p : Fin 256) (j : Fin 2048) :
    gatedBlock v18 v40 v50 v60 v67 v70 v72 v75 v85 v88 (ix2 p j)
      = v40 (ix2 p j) * ((∑ h : Fin 32, (Scalar.select (v70 (ix2 p h)) (v72 (ix2 p h)) (v67 (ix2 p h) + Ideal.log1p (Ideal.exp (v75 (ix2 p h))))
            * ∑ n : Fin 128, v50 (ix2 p n) * v60 (ix2 p n)) * v85 (ix2 h j)) + v88 (ix2 (0 : Fin 1) j))
        * (v18 (ix2 p j) * Ideal.logistic (v18 (ix2 p j))) := by
  unfold gatedBlock
  rw [mulf_apply, mulf_apply, mulf_apply, logistic_at, addf_apply, broadcastTo_1b_ab_apply, shapeCast_self, shapeCast_self,
    mm _ _ rfl rfl rfl rfl rfl rfl]
  congr 2
  congr 1
  refine Finset.sum_congr rfl fun h _ => ?_
  rw [mulf_apply, select_apply, addf_apply, log1p_at, exp_at, Cert.LibKeepdims.broadcastTo_a1_ab_apply,
    Cert.LibKeepdims.shapeCast_a_a1_apply, laneSum]
  rfl

/-- The output at `(p, q)`, over the block's gated values. -/
theorem out_at (v95 : FVec Ideal S256x2048 .f32) (v106 : Vec Ideal S1x2048 .f32) (v111 : Vec Ideal S2048x1024 .bf16) (v115 : Vec Ideal S1024x256 .bf16) (p : Fin 256) (q : Fin 256) :
    outBlock v95 v106 v111 v115 (ix2 p q)
      = ∑ k : Fin 1024, (∑ j : Fin 2048, (v95 (ix2 p j) * Ideal.rsqrt (Ideal.div (∑ j' : Fin 2048, v95 (ix2 p j') * v95 (ix2 p j')) (Ideal.ofBits .f32 0x45000000#32) + Ideal.ofBits .f32 0x3727C5AC#32)
          * v106 (ix2 (0 : Fin 1) j)) * v111 (ix2 j k)) * v115 (ix2 k q) := by
  unfold outBlock
  simp only [shapeCast_self]
  rw [mm _ _ rfl rfl rfl rfl rfl rfl]
  refine Finset.sum_congr rfl fun k _ => ?_
  congr 1
  rw [truncf_apply, mm _ _ rfl rfl rfl rfl rfl rfl]
  refine Finset.sum_congr rfl fun j _ => ?_
  congr 1
  rw [truncf_apply, mulf_apply, mulf_apply, broadcastTo_1b_ab_apply, Cert.LibKeepdims.broadcastTo_a1_ab_apply,
    rsqrt_at, addf_apply, divf_apply, broadcast_apply, broadcast_apply, Cert.LibKeepdims.shapeCast_a_a1_apply, laneSum]
  rfl

/-- ENTRY `(p, q)` OF THE STORED BLOCK is the kernel-arranged row computation of row `p` of the state and action
    blocks over the weight windows' contents. -/
theorem stored_at (P0 : Vec Ideal S256x256 .f32) (P1 : Vec Ideal S256x64 .f32) (P2 : Vec Ideal S256x1024 .bf16) (P3 : Vec Ideal S64x1024 .bf16) (P4 : Vec Ideal S1x1024 .f32)
    (P5 P6 : Vec Ideal S1024x2048 .bf16) (P7 P8 : Vec Ideal S1x2048 .f32)
    (P9 : Vec Ideal S1024x128 .bf16) (P10 P11 : Vec Ideal S1x128 .f32)
    (P12 : Vec Ideal S1024x128 .bf16) (P13 P14 : Vec Ideal S1x128 .f32)
    (P15 : Vec Ideal S1024x128 .bf16) (P16 : Vec Ideal S1x32 .f32) (P17 : Vec Ideal S32x2048 .f32)
    (P18 P19 : Vec Ideal S1x2048 .f32) (P20 : Vec Ideal S2048x1024 .bf16) (P21 : Vec Ideal S1024x256 .bf16)
    (P22 : Vec Ideal S1x256 .f32) (p : Fin 256) (q : Fin 256) :
    k0_pay1 (F := Ideal) (k0_pay17 (k0_pay3 P0 P1 P2 P3 P4 P5) (k0_pay8 (k0_pay4 P0 P1 P2 P3 P4 P6) P7 P8)
        (k0_pay9 (k0_pay5 P0 P1 P2 P3 P4 P9) P10 P11) (k0_pay10 (k0_pay6 P0 P1 P2 P3 P4 P12) P13 P14)
        (k0_pay12 (k0_pay7 P0 P1 P2 P3 P4 P15) P16) (k0_pay14 (k0_pay7 P0 P1 P2 P3 P4 P15) P16)
        (k0_pay15 (k0_pay7 P0 P1 P2 P3 P4 P15) P16) (k0_pay16 (k0_pay7 P0 P1 P2 P3 P4 P15) P16) P17 P18 P19 P20 P21) P22 (ix2 p q)
      = K.out (windowsOf P2 P3 P4 P5 P6 P7 P8 P9 P10 P11 P12 P13 P14 P15 P16 P17 P18 P19 P20 P21 P22)
          (fun i => P0 (ix2 p i)) (fun i => P1 (ix2 p i)) q := by
  have hx0 : ∀ k : Fin 1024, k0_pay2 (F := Ideal) P0 P1 P2 P3 P4 (ix2 p k)
      = K.x0 (windowsOf P2 P3 P4 P5 P6 P7 P8 P9 P10 P11 P12 P13 P14 P15 P16 P17 P18 P19 P20 P21 P22)
          (fun i => P0 (ix2 p i)) (fun i => P1 (ix2 p i)) k := fun k => (inLayer_at P0 P1 P2 P3 P4 p k).trans rfl
  have hg : ∀ j : Fin 2048, gatedBlock (k0_pay3 P0 P1 P2 P3 P4 P5) (k0_pay8 (k0_pay4 P0 P1 P2 P3 P4 P6) P7 P8)
        (k0_pay9 (k0_pay5 P0 P1 P2 P3 P4 P9) P10 P11) (k0_pay10 (k0_pay6 P0 P1 P2 P3 P4 P12) P13 P14)
        (k0_pay12 (k0_pay7 P0 P1 P2 P3 P4 P15) P16) (k0_pay14 (k0_pay7 P0 P1 P2 P3 P4 P15) P16)
        (k0_pay15 (k0_pay7 P0 P1 P2 P3 P4 P15) P16) (k0_pay16 (k0_pay7 P0 P1 P2 P3 P4 P15) P16) P17 P18 (ix2 p j)
      = K.g (windowsOf P2 P3 P4 P5 P6 P7 P8 P9 P10 P11 P12 P13 P14 P15 P16 P17 P18 P19 P20 P21 P22)
          (fun i => P0 (ix2 p i)) (fun i => P1 (ix2 p i)) j := fun j => by
    rw [gated_at, convX_at, projX_at, projZ_at]
    simp only [step_at, convB_at, convC_at, projB_at, projC_at, projDt_at, hx0]
    rfl
  unfold k0_pay1
  rw [addf_apply, broadcastTo_1b_ab_apply, shapeCast_self, body_split, out_at]
  simp only [hg]
  rfl

end Cert.Payload

end
-- ==== Proof.Blocks.lean ====
/-
  From the blocks to the whole result array.

  The grid has 64 points; point `t` stages rows `256 t … 256 t + 255` of the state and of the action, the whole
  of every weight array, and writes back rows `256 t … 256 t + 255` of the result.  So what point `t` writes
  back is block `t` of ONE function of the arrays as the region finds them — row `r` of the result is the
  kernel-arranged row computation of row `r` of the state and action —, and since the 64 blocks tile the
  16384 rows, the result array ends holding that function.
-/
import proofs.«173860_j17403207483676_2_alg».proof.Proof.Gen.KernelIdeal.Value
import proofs.«173860_j17403207483676_2_alg».proof.Proof.Payload

noncomputable section

namespace Cert.Blocks

open Cert.KernelIdeal Cert.KernelIdeal.Gen Idealize.ShloMosaic Idealize.ShloMosaic.TcCoe Idealize.SL.Sem
open Idealize.ShloMosaic.ValueIdx Cert.Spec Cert.KernelRow Cert.Payload
open Idealize.ShloMosaic.Pipeline (Dat)

variable (c : Dev nD) (A : (b : Ref sig .tc) → Buf (Elt Ideal) ((c : Thread nD τ).loc b))

theorem hz : (![0, 0] : Fin 2 → Nat) = fun _ => 0 := funext fun a => by fin_cases a <;> rfl

/-! ## The index maps, decided over the 64 grid points -/

/-- State, action and result move together down the rows; none moves along the columns. -/
theorem idx_rows : ∀ t : Fin cfg0.N, win0_0.index t (0 : Fin 2) = win0_23.index t (0 : Fin 2) ∧ win0_0.index t (1 : Fin 2) = 0
    ∧ win0_1.index t (0 : Fin 2) = win0_23.index t (0 : Fin 2) ∧ win0_1.index t (1 : Fin 2) = 0
    ∧ win0_23.index t (1 : Fin 2) = 0 ∧ win0_23.index t (0 : Fin 2) ≤ 63 :=
  (by decide +kernel : ∀ t : Fin grid0.N, _)

/-- Every block of rows is some point's. -/
theorem idx_onto : ∀ q0 : Fin 64, ∃ t : Fin cfg0.N, win0_23.index t (0 : Fin 2) = q0.val :=
  (by decide +kernel : ∀ q0 : Fin 64, ∃ t : Fin grid0.N, win0_23.index t (0 : Fin 2) = q0.val)

theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)
theorem idx_21 : ∀ t : Fin cfg0.N, win0_21.index t (0 : Fin 2) = 0 ∧ win0_21.index t (1 : Fin 2) = 0 :=
  (by decide +kernel : ∀ t : Fin grid0.N, _)
theorem idx_22 : ∀ t : Fin cfg0.N, win0_22.index t (0 : Fin 2) = 0 ∧ win0_22.index t (1 : Fin 2) = 0 :=
  (by decide +kernel : ∀ t : Fin grid0.N, _)

/-! ## A weight window's block is the whole array

The arrays enter as ONE family `A` of buffer contents, so that nothing here depends on how they were computed. -/

/-- Window `w`'s block at point `t`, read off the family `A`. -/
def blkOf (w : Fin cfg0.W) (t : Fin cfg0.N) : ((cfg0.win w).xblock (cfg0.grid.coords t)).Idx → Elt Ideal (cfg0.win w).elt :=
  ((cfg0.win w).blk t).view.read (Elt Ideal) (A (Pipeline.arrRef spec0 w))

theorem blk_2 (t : Fin cfg0.N) : (blkOf c A 2 t : Vec Ideal S256x1024 .bf16) = (A main_v1 : Vec Ideal S256x1024 .bf16) := by
  funext y
  show A main_v1 (((cfg0.win 2).blk t).view.emb y) = A main_v1 y
  congr 1
  funext a; apply Fin.ext
  match a with
  | ⟨0, _⟩ => show win0_2.index t (0 : Fin 2) * 256 + 1 * (y 0).val = (y 0).val; rw [(idx_2 t).1]; omega
  | ⟨1, _⟩ => show win0_2.index t (1 : Fin 2) * 1024 + 1 * (y 1).val = (y 1).val; rw [(idx_2 t).2]; omega

theorem blk_3 (t : Fin cfg0.N) : (blkOf c A 3 t : Vec Ideal S64x1024 .bf16) = (A main_v3 : Vec Ideal S64x1024 .bf16) := by
  funext y
  show A main_v3 (((cfg0.win 3).blk t).view.emb y) = A main_v3 y
  congr 1
  funext a; apply Fin.ext
  match a with
  | ⟨0, _⟩ => show win0_3.index t (0 : Fin 2) * 64 + 1 * (y 0).val = (y 0).val; rw [(idx_3 t).1]; omega
  | ⟨1, _⟩ => show win0_3.index t (1 : Fin 2) * 1024 + 1 * (y 1).val = (y 1).val; rw [(idx_3 t).2]; omega

theorem blk_4 (t : Fin cfg0.N) : (blkOf c A 4 t : Vec Ideal S1x1024 .f32) = (A main_v4 : Vec Ideal S1x1024 .f32) := by
  funext y
  show A main_v4 (((cfg0.win 4).blk t).view.emb y) = A main_v4 y
  congr 1
  funext a; apply Fin.ext
  match a with
  | ⟨0, _⟩ => show win0_4.index t (0 : Fin 2) * 1 + 1 * (y 0).val = (y 0).val; rw [(idx_4 t).1]; omega
  | ⟨1, _⟩ => show win0_4.index t (1 : Fin 2) * 1024 + 1 * (y 1).val = (y 1).val; rw [(idx_4 t).2]; omega

theorem blk_5 (t : Fin cfg0.N) : (blkOf c A 5 t : Vec Ideal S1024x2048 .bf16) = (A main_v6 : Vec Ideal S1024x2048 .bf16) := by
  funext y
  show A main_v6 (((cfg0.win 5).blk t).view.emb y) = A main_v6 y
  congr 1
  funext a; apply Fin.ext
  match a with
  | ⟨0, _⟩ => show win0_5.index t (0 : Fin 2) * 1024 + 1 * (y 0).val = (y 0).val; rw [(idx_5 t).1]; omega
  | ⟨1, _⟩ => show win0_5.index t (1 : Fin 2) * 2048 + 1 * (y 1).val = (y 1).val; rw [(idx_5 t).2]; omega

theorem blk_6 (t : Fin cfg0.N) : (blkOf c A 6 t : Vec Ideal S1024x2048 .bf16) = (A main_v8 : Vec Ideal S1024x2048 .bf16) := by
  funext y
  show A main_v8 (((cfg0.win 6).blk t).view.emb y) = A main_v8 y
  congr 1
  funext a; apply Fin.ext
  match a with
  | ⟨0, _⟩ => show win0_6.index t (0 : Fin 2) * 1024 + 1 * (y 0).val = (y 0).val; rw [(idx_6 t).1]; omega
  | ⟨1, _⟩ => show win0_6.index t (1 : Fin 2) * 2048 + 1 * (y 1).val = (y 1).val; rw [(idx_6 t).2]; omega

theorem blk_7 (t : Fin cfg0.N) : (blkOf c A 7 t : Vec Ideal S1024x128 .bf16) = (A main_v13 : Vec Ideal S1024x128 .bf16) := by
  funext y
  show A main_v13 (((cfg0.win 7).blk t).view.emb y) = A main_v13 y
  congr 1
  funext a; apply Fin.ext
  match a with
  | ⟨0, _⟩ => show win0_7.index t (0 : Fin 2) * 1024 + 1 * (y 0).val = (y 0).val; rw [(idx_7 t).1]; omega
  | ⟨1, _⟩ => show win0_7.index t (1 : Fin 2) * 128 + 1 * (y 1).val = (y 1).val; rw [(idx_7 t).2]; omega

theorem blk_8 (t : Fin cfg0.N) : (blkOf c A 8 t : Vec Ideal S1024x128 .bf16) = (A main_v15 : Vec Ideal S1024x128 .bf16) := by
  funext y
  show A main_v15 (((cfg0.win 8).blk t).view.emb y) = A main_v15 y
  congr 1
  funext a; apply Fin.ext
  match a with
  | ⟨0, _⟩ => show win0_8.index t (0 : Fin 2) * 1024 + 1 * (y 0).val = (y 0).val; rw [(idx_8 t).1]; omega
  | ⟨1, _⟩ => show win0_8.index t (1 : Fin 2) * 128 + 1 * (y 1).val = (y 1).val; rw [(idx_8 t).2]; omega

theorem blk_9 (t : Fin cfg0.N) : (blkOf c A 9 t : Vec Ideal S1024x128 .bf16) = (A main_v17 : Vec Ideal S1024x128 .bf16) := by
  funext y
  show A main_v17 (((cfg0.win 9).blk t).view.emb y) = A main_v17 y
  congr 1
  funext a; apply Fin.ext
  match a with
  | ⟨0, _⟩ => show win0_9.index t (0 : Fin 2) * 1024 + 1 * (y 0).val = (y 0).val; rw [(idx_9 t).1]; omega
  | ⟨1, _⟩ => show win0_9.index t (1 : Fin 2) * 128 + 1 * (y 1).val = (y 1).val; rw [(idx_9 t).2]; omega

theorem blk_10 (t : Fin cfg0.N) : (blkOf c A 10 t : Vec Ideal S1x2048 .f32) = (A main_v21 : Vec Ideal S1x2048 .f32) := by
  funext y
  show A main_v21 (((cfg0.win 10).blk t).view.emb y) = A main_v21 y
  congr 1
  funext a; apply Fin.ext
  match a with
  | ⟨0, _⟩ => show win0_10.index t (0 : Fin 2) * 1 + 1 * (y 0).val = (y 0).val; rw [(idx_10 t).1]; omega
  | ⟨1, _⟩ => show win0_10.index t (1 : Fin 2) * 2048 + 1 * (y 1).val = (y 1).val; rw [(idx_10 t).2]; omega

theorem blk_11 (t : Fin cfg0.N) : (blkOf c A 11 t : Vec Ideal S1x2048 .f32) = (A main_v29 : Vec Ideal S1x2048 .f32) := by
  funext y
  show A main_v29 (((cfg0.win 11).blk t).view.emb y) = A main_v29 y
  congr 1
  funext a; apply Fin.ext
  match a with
  | ⟨0, _⟩ => show win0_11.index t (0 : Fin 2) * 1 + 1 * (y 0).val = (y 0).val; rw [(idx_11 t).1]; omega
  | ⟨1, _⟩ => show win0_11.index t (1 : Fin 2) * 2048 + 1 * (y 1).val = (y 1).val; rw [(idx_11 t).2]; omega

theorem blk_12 (t : Fin cfg0.N) : (blkOf c A 12 t : Vec Ideal S1x128 .f32) = (A main_v25 : Vec Ideal S1x128 .f32) := by
  funext y
  show A main_v25 (((cfg0.win 12).blk t).view.emb y) = A main_v25 y
  congr 1
  funext a; apply Fin.ext
  match a with
  | ⟨0, _⟩ => show win0_12.index t (0 : Fin 2) * 1 + 1 * (y 0).val = (y 0).val; rw [(idx_12 t).1]; omega
  | ⟨1, _⟩ => show win0_12.index t (1 : Fin 2) * 128 + 1 * (y 1).val = (y 1).val; rw [(idx_12 t).2]; omega

theorem blk_13 (t : Fin cfg0.N) : (blkOf c A 13 t : Vec Ideal S1x128 .f32) = (A main_v33 : Vec Ideal S1x128 .f32) := by
  funext y
  show A main_v33 (((cfg0.win 13).blk t).view.emb y) = A main_v33 y
  congr 1
  funext a; apply Fin.ext
  match a with
  | ⟨0, _⟩ => show win0_13.index t (0 : Fin 2) * 1 + 1 * (y 0).val = (y 0).val; rw [(idx_13 t).1]; omega
  | ⟨1, _⟩ => show win0_13.index t (1 : Fin 2) * 128 + 1 * (y 1).val = (y 1).val; rw [(idx_13 t).2]; omega

theorem blk_14 (t : Fin cfg0.N) : (blkOf c A 14 t : Vec Ideal S1x128 .f32) = (A main_v27 : Vec Ideal S1x128 .f32) := by
  funext y
  show A main_v27 (((cfg0.win 14).blk t).view.emb y) = A main_v27 y
  congr 1
  funext a; apply Fin.ext
  match a with
  | ⟨0, _⟩ => show win0_14.index t (0 : Fin 2) * 1 + 1 * (y 0).val = (y 0).val; rw [(idx_14 t).1]; omega
  | ⟨1, _⟩ => show win0_14.index t (1 : Fin 2) * 128 + 1 * (y 1).val = (y 1).val; rw [(idx_14 t).2]; omega

theorem blk_15 (t : Fin cfg0.N) : (blkOf c A 15 t : Vec Ideal S1x128 .f32) = (A main_v35 : Vec Ideal S1x128 .f32) := by
  funext y
  show A main_v35 (((cfg0.win 15).blk t).view.emb y) = A main_v35 y
  congr 1
  funext a; apply Fin.ext
  match a with
  | ⟨0, _⟩ => show win0_15.index t (0 : Fin 2) * 1 + 1 * (y 0).val = (y 0).val; rw [(idx_15 t).1]; omega
  | ⟨1, _⟩ => show win0_15.index t (1 : Fin 2) * 128 + 1 * (y 1).val = (y 1).val; rw [(idx_15 t).2]; omega

theorem blk_16 (t : Fin cfg0.N) : (blkOf c A 16 t : Vec Ideal S1x32 .f32) = (A main_v36 : Vec Ideal S1x32 .f32) := by
  funext y
  show A main_v36 (((cfg0.win 16).blk t).view.emb y) = A main_v36 y
  congr 1
  funext a; apply Fin.ext
  match a with
  | ⟨0, _⟩ => show win0_16.index t (0 : Fin 2) * 1 + 1 * (y 0).val = (y 0).val; rw [(idx_16 t).1]; omega
  | ⟨1, _⟩ => show win0_16.index t (1 : Fin 2) * 32 + 1 * (y 1).val = (y 1).val; rw [(idx_16 t).2]; omega

theorem blk_17 (t : Fin cfg0.N) : (blkOf c A 17 t : Vec Ideal S1x2048 .f32) = (A main_v39 : Vec Ideal S1x2048 .f32) := by
  funext y
  show A main_v39 (((cfg0.win 17).blk t).view.emb y) = A main_v39 y
  congr 1
  funext a; apply Fin.ext
  match a with
  | ⟨0, _⟩ => show win0_17.index t (0 : Fin 2) * 1 + 1 * (y 0).val = (y 0).val; rw [(idx_17 t).1]; omega
  | ⟨1, _⟩ => show win0_17.index t (1 : Fin 2) * 2048 + 1 * (y 1).val = (y 1).val; rw [(idx_17 t).2]; omega

theorem blk_18 (t : Fin cfg0.N) : (blkOf c A 18 t : Vec Ideal S32x2048 .f32) = (A main_v47 : Vec Ideal S32x2048 .f32) := by
  funext y
  show A main_v47 (((cfg0.win 18).blk t).view.emb y) = A main_v47 y
  congr 1
  funext a; apply Fin.ext
  match a with
  | ⟨0, _⟩ => show win0_18.index t (0 : Fin 2) * 32 + 1 * (y 0).val = (y 0).val; rw [(idx_18 t).1]; omega
  | ⟨1, _⟩ => show win0_18.index t (1 : Fin 2) * 2048 + 1 * (y 1).val = (y 1).val; rw [(idx_18 t).2]; omega

theorem blk_19 (t : Fin cfg0.N) : (blkOf c A 19 t : Vec Ideal S1x2048 .f32) = (A main_v48 : Vec Ideal S1x2048 .f32) := by
  funext y
  show A main_v48 (((cfg0.win 19).blk t).view.emb y) = A main_v48 y
  congr 1
  funext a; apply Fin.ext
  match a with
  | ⟨0, _⟩ => show win0_19.index t (0 : Fin 2) * 1 + 1 * (y 0).val = (y 0).val; rw [(idx_19 t).1]; omega
  | ⟨1, _⟩ => show win0_19.index t (1 : Fin 2) * 2048 + 1 * (y 1).val = (y 1).val; rw [(idx_19 t).2]; omega

theorem blk_20 (t : Fin cfg0.N) : (blkOf c A 20 t : Vec Ideal S2048x1024 .bf16) = (A main_v49 : Vec Ideal S2048x1024 .bf16) := by
  funext y
  show A main_v49 (((cfg0.win 20).blk t).view.emb y) = A main_v49 y
  congr 1
  funext a; apply Fin.ext
  match a with
  | ⟨0, _⟩ => show win0_20.index t (0 : Fin 2) * 2048 + 1 * (y 0).val = (y 0).val; rw [(idx_20 t).1]; omega
  | ⟨1, _⟩ => show win0_20.index t (1 : Fin 2) * 1024 + 1 * (y 1).val = (y 1).val; rw [(idx_20 t).2]; omega

theorem blk_21 (t : Fin cfg0.N) : (blkOf c A 21 t : Vec Ideal S1024x256 .bf16) = (A main_v50 : Vec Ideal S1024x256 .bf16) := by
  funext y
  show A main_v50 (((cfg0.win 21).blk t).view.emb y) = A main_v50 y
  congr 1
  funext a; apply Fin.ext
  match a with
  | ⟨0, _⟩ => show win0_21.index t (0 : Fin 2) * 1024 + 1 * (y 0).val = (y 0).val; rw [(idx_21 t).1]; omega
  | ⟨1, _⟩ => show win0_21.index t (1 : Fin 2) * 256 + 1 * (y 1).val = (y 1).val; rw [(idx_21 t).2]; omega

theorem blk_22 (t : Fin cfg0.N) : (blkOf c A 22 t : Vec Ideal S1x256 .f32) = (A main_v51 : Vec Ideal S1x256 .f32) := by
  funext y
  show A main_v51 (((cfg0.win 22).blk t).view.emb y) = A main_v51 y
  congr 1
  funext a; apply Fin.ext
  match a with
  | ⟨0, _⟩ => show win0_22.index t (0 : Fin 2) * 1 + 1 * (y 0).val = (y 0).val; rw [(idx_22 t).1]; omega
  | ⟨1, _⟩ => show win0_22.index t (1 : Fin 2) * 256 + 1 * (y 1).val = (y 1).val; rw [(idx_22 t).2]; omega

/-! ## The row a point's block row comes from -/

/-- Row `p` of point `t`'s blocks is row `256 t + p` of the arrays. -/
def row (t : Fin cfg0.N) (p : Fin 256) : Fin 16384 :=
  ⟨win0_23.index t (0 : Fin 2) * 256 + p.val, by have := (idx_rows t).2.2.2.2.2; have := p.isLt; omega⟩

theorem state_row (t : Fin cfg0.N) (p : Fin 256) (i : Fin 256) :
    (blkOf c A 0 t : Vec Ideal S256x256 .f32) (ix2 p i) = (A main_arg0 : Vec Ideal S16384x256 .f32) (ix2 (row t p) i) := by
  show A main_arg0 (((cfg0.win 0).blk t).view.emb (ix2 p i)) = A main_arg0 (ix2 (row t p) i)
  congr 1
  funext a; apply Fin.ext
  match a with
  | ⟨0, _⟩ => show win0_0.index t (0 : Fin 2) * 256 + 1 * p.val = win0_23.index t (0 : Fin 2) * 256 + p.val; rw [(idx_rows t).1]; omega
  | ⟨1, _⟩ => show win0_0.index t (1 : Fin 2) * 256 + 1 * i.val = i.val; rw [(idx_rows t).2.1]; omega

theorem action_row (t : Fin cfg0.N) (p : Fin 256) (i : Fin 64) :
    (blkOf c A 1 t : Vec Ideal S256x64 .f32) (ix2 p i) = (A main_arg1 : Vec Ideal S16384x64 .f32) (ix2 (row t p) i) := by
  show A main_arg1 (((cfg0.win 1).blk t).view.emb (ix2 p i)) = A main_arg1 (ix2 (row t p) i)
  congr 1
  funext a; apply Fin.ext
  match a with
  | ⟨0, _⟩ => show win0_1.index t (0 : Fin 2) * 256 + 1 * p.val = win0_23.index t (0 : Fin 2) * 256 + p.val; rw [(idx_rows t).2.2.1]; omega
  | ⟨1, _⟩ => show win0_1.index t (1 : Fin 2) * 64 + 1 * i.val = i.val; rw [(idx_rows t).2.2.2.1]; omega

/-! ## What the body leaves at a point -/

/-- The weight windows' contents. -/
abbrev QA : Windows := (windowsOf (A main_v1 : Vec Ideal S256x1024 .bf16) (A main_v3 : Vec Ideal S64x1024 .bf16) (A main_v4 : Vec Ideal S1x1024 .f32) (A main_v6 : Vec Ideal S1024x2048 .bf16) (A main_v8 : Vec Ideal S1024x2048 .bf16) (A main_v21 : Vec Ideal S1x2048 .f32) (A main_v29 : Vec Ideal S1x2048 .f32) (A main_v13 : Vec Ideal S1024x128 .bf16) (A main_v25 : Vec Ideal S1x128 .f32) (A main_v33 : Vec Ideal S1x128 .f32) (A main_v15 : Vec Ideal S1024x128 .bf16) (A main_v27 : Vec Ideal S1x128 .f32) (A main_v35 : Vec Ideal S1x128 .f32) (A main_v17 : Vec Ideal S1024x128 .bf16) (A main_v36 : Vec Ideal S1x32 .f32) (A main_v47 : Vec Ideal S32x2048 .f32) (A main_v39 : Vec Ideal S1x2048 .f32) (A main_v48 : Vec Ideal S1x2048 .f32) (A main_v49 : Vec Ideal S2048x1024 .bf16) (A main_v50 : Vec Ideal S1024x256 .bf16) (A main_v51 : Vec Ideal S1x256 .f32))

/-- Entry `(p, q)` of what the body leaves at point `t`: the kernel-arranged row computation of row `256 t + p`. -/
theorem body_at (t : Fin cfg0.N) (p q : Fin 256) :
    out0_23 (blkOf c A 0 t) (blkOf c A 1 t) (blkOf c A 2 t) (blkOf c A 3 t) (blkOf c A 4 t) (blkOf c A 5 t) (blkOf c A 6 t) (blkOf c A 7 t) (blkOf c A 8 t) (blkOf c A 9 t) (blkOf c A 10 t) (blkOf c A 11 t) (blkOf c A 12 t) (blkOf c A 13 t) (blkOf c A 14 t) (blkOf c A 15 t) (blkOf c A 16 t) (blkOf c A 17 t) (blkOf c A 18 t) (blkOf c A 19 t) (blkOf c A 20 t) (blkOf c A 21 t) (blkOf c A 22 t) (ix2 p q)
      = K.out (QA c A) (fun s => (A main_arg0 : Vec Ideal S16384x256 .f32) (ix2 (row t p) s))
          (fun a => (A main_arg1 : Vec Ideal S16384x64 .f32) (ix2 (row t p) a)) q := by
  unfold out0_23
  rw [View.canon_unit_zero hz]
  simp only [View.ld_unit_zero (S := S256x256) hz, View.ld_unit_zero (S := S256x64) hz, View.ld_unit_zero (S := S256x1024) hz, View.ld_unit_zero (S := S64x1024) hz, View.ld_unit_zero (S := S1x1024) hz, View.ld_unit_zero (S := S1024x2048) hz, View.ld_unit_zero (S := S1024x128) hz, View.ld_unit_zero (S := S1x2048) hz, View.ld_unit_zero (S := S1x128) hz, View.ld_unit_zero (S := S1x32) hz, View.ld_unit_zero (S := S32x2048) hz, View.ld_unit_zero (S := S2048x1024) hz, View.ld_unit_zero (S := S1024x256) hz, View.ld_unit_zero (S := S1x256) hz]
  refine (stored_at (blkOf c A 0 t) (blkOf c A 1 t) (blkOf c A 2 t) (blkOf c A 3 t) (blkOf c A 4 t) (blkOf c A 5 t) (blkOf c A 6 t) (blkOf c A 10 t) (blkOf c A 11 t) (blkOf c A 7 t) (blkOf c A 12 t) (blkOf c A 13 t) (blkOf c A 8 t) (blkOf c A 14 t) (blkOf c A 15 t) (blkOf c A 9 t) (blkOf c A 16 t) (blkOf c A 18 t) (blkOf c A 17 t) (blkOf c A 19 t) (blkOf c A 20 t) (blkOf c A 21 t) (blkOf c A 22 t) p q).trans ?_
  rw [blk_2 c A t, blk_3 c A t, blk_4 c A t, blk_5 c A t, blk_6 c A t, blk_7 c A t, blk_8 c A t, blk_9 c A t, blk_10 c A t, blk_11 c A t, blk_12 c A t, blk_13 c A t, blk_14 c A t, blk_15 c A t, blk_16 c A t, blk_17 c A t, blk_18 c A t, blk_19 c A t, blk_20 c A t, blk_21 c A t, blk_22 c A t]
  have e0 : (fun i : Fin 256 => (blkOf c A 0 t : Vec Ideal S256x256 .f32) (ix2 p i))
      = fun s => (A main_arg0 : Vec Ideal S16384x256 .f32) (ix2 (row t p) s) := funext fun i => state_row c A t p i
  have e1 : (fun i : Fin 64 => (blkOf c A 1 t : Vec Ideal S256x64 .f32) (ix2 p i))
      = fun a => (A main_arg1 : Vec Ideal S16384x64 .f32) (ix2 (row t p) a) := funext fun i => action_row c A t p i
  rw [e0, e1]

/-- The result as one function of the arrays: row `i 0`'s output `i 1`, in the kernel's arrangement. -/
def GkOf : S16384x256.Idx → EReal := fun i =>
  K.out (QA c A) (fun s => (A main_arg0 : Vec Ideal S16384x256 .f32) (ix2 (i 0) s))
    (fun a => (A main_arg1 : Vec Ideal S16384x64 .f32) (ix2 (i 0) a)) (i 1)

/-- Block `t` of `GkOf`, read at `(p, q)`, is what the body leaves there. -/
theorem block_of_GkOf (t : Fin cfg0.N) (p q : Fin 256) :
    GkOf c A (((cfg0.win 23).blk t).view.emb (ix2 p q))
      = K.out (QA c A) (fun s => (A main_arg0 : Vec Ideal S16384x256 .f32) (ix2 (row t p) s))
          (fun a => (A main_arg1 : Vec Ideal S16384x64 .f32) (ix2 (row t p) a)) q := by
  have e0 : (((cfg0.win 23).blk t).view.emb (ix2 p q)) 0 = row t p :=
    Fin.ext (by show win0_23.index t (0 : Fin 2) * 256 + 1 * p.val = win0_23.index t (0 : Fin 2) * 256 + p.val; omega)
  have e1 : (((cfg0.win 23).blk t).view.emb (ix2 p q)) 1 = q :=
    Fin.ext (by show win0_23.index t (1 : Fin 2) * 256 + 1 * q.val = q.val; rw [(idx_rows t).2.2.2.2.1]; omega)
  unfold GkOf
  rw [e0, e1]

/-- An index of the result array is in point `t`'s block iff each coordinate is in the block's range on its axis. -/
theorem mem_blk (t : Fin cfg0.N) (i : S16384x256.Idx) :
    i ∈ ((cfg0.win 23).blk t).view.set ↔ ∀ a : Fin 2, win0_23.index t a * S256x256.size a ≤ (i a).val ∧ (i a).val < win0_23.index t a * S256x256.size a + S256x256.size a := by
  show i ∈ ((View.whole main_v52).slice (win0_23.rect t)).set ↔ _
  rw [View.set_slice_whole, Rect.mem_set_unit]
  exact Iff.rfl

/-- The 64 blocks of 256 rows tile the result array. -/
theorem covered (i : S16384x256.Idx) : ∃ t : Fin cfg0.N, (cfg0.win 23).flush t = true ∧ i ∈ ((cfg0.win 23).blk t).view.set := by
  have hi0 : (i 0).val < 16384 := (i 0).isLt
  have hi1 : (i 1).val < 256 := (i 1).isLt
  obtain ⟨t, ht⟩ := idx_onto ⟨(i 0).val / 256, by omega⟩
  have ht' : win0_23.index t (0 : Fin 2) = (i 0).val / 256 := ht
  refine ⟨t, flush0_23 t, ?_⟩
  rw [mem_blk]
  intro a
  match a with
  | ⟨0, _⟩ => show win0_23.index t (0 : Fin 2) * 256 ≤ (i 0).val ∧ (i 0).val < win0_23.index t (0 : Fin 2) * 256 + 256; omega
  | ⟨1, _⟩ => show win0_23.index t (1 : Fin 2) * 256 ≤ (i 1).val ∧ (i 1).val < win0_23.index t (1 : Fin 2) * 256 + 256; rw [(idx_rows t).2.2.2.2.1]; omega

end Cert.Blocks

end
-- ==== Proof.BlocksResult.lean ====
/-
  What each grid point writes back, as a block of one whole-array function, and the result array after the
  region: the 64 blocks of 256 rows tile its 16384 rows.
-/
import proofs.«173860_j17403207483676_2_alg».proof.Proof.Blocks

noncomputable section

namespace Cert.Blocks

open Cert.KernelIdeal Cert.KernelIdeal.Gen Idealize.ShloMosaic Idealize.ShloMosaic.TcCoe Idealize.SL.Sem
open Idealize.ShloMosaic.ValueIdx Cert.Spec Cert.KernelRow Cert.Payload
open Idealize.ShloMosaic.Pipeline (Dat)

variable (m : (ℓ : Loc nD τ sig) → Buf (Elt Ideal) ℓ) (c : Dev nD)

/-- The arrays as the region finds them, as one family. -/
abbrev AV : (b : Ref sig .tc) → Buf (Elt Ideal) ((c : Thread nD τ).loc b) := fun b => V m c b

/-- The weight windows' contents at region entry. -/
abbrev Q : Windows := QA c (AV m c)

/-- The result array as one function of the arrays at region entry. -/
abbrev Gk : S16384x256.Idx → EReal := GkOf c (AV m c)

/-- WHAT POINT `t` WRITES BACK is block `t` of `Gk`. -/
theorem flushed_eq (t : Fin cfg0.N) :
    (dats m 0 c).flushed 23 t = ((cfg0.win 23).blk t).view.read (Elt Ideal) (Gk m c) := by
  rw [Cert.KernelIdeal.Value.flushed23]
  funext y
  obtain ⟨p, q, rfl⟩ : ∃ (p q : Fin 256), y = ix2 p q := ⟨y 0, y 1, eq_ix2 (n0 := 256) (n1 := 256) y⟩
  exact (body_at c (AV m c) t p q).trans (block_of_GkOf c (AV m c) t p q).symm

/-- THE RESULT ARRAY after the region is `Gk`. -/
theorem final : (dats m 0 c).arrAt 23 cfg0.N = Gk m c :=
  (dats m 0 c).arrAt_eq_of_cover 23 (Gk m c) (fun t _ => flushed_eq m c t) covered

/-- The kernel's run, with the result array named. -/
theorem run (ρ : Dev nD → PrngReg) : θ_run defs (onTc (τ := τ) (main (F := Ideal))) ⟨m, fun _ => 0, ρ⟩ fun r => ∀ c : Dev nD,
      r.2.mem ((c : Thread nD τ).loc main_v52) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.Blocks

end
-- ==== Proof.LibPadRead.lean ====
/-
  Reading a zero-padded array, a cut vector and a trailing unit axis at an index.

  `stablehlo.pad` with no interior padding and padding only at the high end of the last axis (what `jnp.pad` of a
  matrix's columns or of a vector's end gives) reads the operand below the seam and the padding value above it;
  a vector cut from offset `o` reads the source at `o + j`; an `[a, 1]` array recast as `[a]` reads the column entry.
-/
import Idealize.ShloMosaic.Lib.ValueLayout
import Idealize.ShloMosaic.Lib.Pipeline.Value
import Idealize.ShloMosaic.Lib.ValueIdx

noncomputable section

namespace Cert.LibPadRead

open Idealize.ShloMosaic Idealize.ShloMosaic.ValueIdx

/-- A matrix padded on the right of its columns reads the operand left of the seam and the padding value right of it. -/
theorem pad2_apply {α : Type} {a b n h : ℕ} (x : (⟨2, ![a, b]⟩ : Shape).Idx → α) {u : Shape} (v : u.Idx → α)
    (hp : (⟨2, ![a, b]⟩ : Shape).Pads ![0, 0] ![0, h] ![0, 0] ⟨2, ![a, n]⟩) (hu : 0 < u.numel)
    (i : Fin a) (j : Fin n) :
    pad ⟨2, ![a, n]⟩ ![0, 0] ![0, h] ![0, 0] x v hp hu (ix2 i j)
      = if hj : j.val < b then x (ix2 i ⟨j.val, hj⟩) else v (Shape.Idx.first hu) := by
  unfold pad
  by_cases hj : j.val < b
  · rw [dif_pos hj, dif_pos]
    · congr 1
      funext d
      match d with
      | ⟨0, _⟩ => exact Fin.ext (by show (i.val - 0) / (0 + 1) = i.val; omega)
      | ⟨1, _⟩ => exact Fin.ext (by show (j.val - 0) / (0 + 1) = j.val; omega)
    · intro d
      match d with
      | ⟨0, _⟩ =>
        show 0 ≤ i.val ∧ (i.val - 0) % (0 + 1) = 0 ∧ (i.val - 0) / (0 + 1) < a
        have := i.isLt
        omega
      | ⟨1, _⟩ =>
        show 0 ≤ j.val ∧ (j.val - 0) % (0 + 1) = 0 ∧ (j.val - 0) / (0 + 1) < b
        omega
  · rw [dif_neg hj, dif_neg]
    intro H
    have h2 := (H ⟨1, Nat.one_lt_two⟩).2.2
    change (j.val - 0) / (0 + 1) < b at h2
    omega

/-- A vector padded at its end reads the operand before the seam and the padding value after it. -/
theorem pad1_apply {α : Type} {b n h : ℕ} (x : (⟨1, ![b]⟩ : Shape).Idx → α) {u : Shape} (v : u.Idx → α)
    (hp : (⟨1, ![b]⟩ : Shape).Pads ![0] ![h] ![0] ⟨1, ![n]⟩) (hu : 0 < u.numel)
    (j : Fin n) :
    pad ⟨1, ![n]⟩ ![0] ![h] ![0] x v hp hu (ix1 j)
      = if hj : j.val < b then x (ix1 ⟨j.val, hj⟩) else v (Shape.Idx.first hu) := by
  unfold pad
  by_cases hj : j.val < b
  · rw [dif_pos hj, dif_pos]
    · congr 1
      funext d
      match d with
      | ⟨0, _⟩ => exact Fin.ext (by show (j.val - 0) / (0 + 1) = j.val; omega)
    · intro d
      match d with
      | ⟨0, _⟩ =>
        show 0 ≤ j.val ∧ (j.val - 0) % (0 + 1) = 0 ∧ (j.val - 0) / (0 + 1) < b
        omega
  · rw [dif_neg hj, dif_neg]
    intro H
    have h2 := (H ⟨0, Nat.one_pos⟩).2.2
    change (j.val - 0) / (0 + 1) < b at h2
    omega

/-- A vector cut from `o` reads, at `j`, the source at `k = o + j`. -/
theorem slice1_apply {α : Type} {n0 n : ℕ} (o : ℕ) (X : (⟨1, ![n0]⟩ : Shape).Idx → α)
    (h : (⟨1, ![n0]⟩ : Shape).Slices ![o] ⟨1, ![n]⟩) (j : Fin n) (k : Fin n0) (hk : k.val = o + j.val) :
    extractStridedSlice ⟨1, ![n]⟩ ![o] X h (ix1 j) = X (ix1 k) :=
  extractStridedSlice_apply _ _ _ _ _ (fun ax => by
    match ax with
    | ⟨0, _⟩ => exact hk)

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibPadRead

end
-- ==== Proof.WindowArrays.lean ====
/-
  What the host-prepared operand arrays of the kernel hold when its region is entered: each is a slice, a
  zero-padded slice, a reshape or a repetition of one weight array, or the one-hot matrix that repeats a
  per-head value over the head's 64 channels. Every float conversion is the identity on the extended reals,
  so each array is read, entry by entry, as the weight it came from.
-/
import Idealize.ShloMosaic.Lib.ValueLayout
import Idealize.ShloMosaic.Lib.Pipeline.Value
import Idealize.ShloMosaic.Lib.ValueIdx
import Idealize.ShloMosaic.PureOps.Ideal
import proofs.«173860_j17403207483676_2_alg».proof.Proof.Gen.KernelIdeal.Frame
import proofs.«173860_j17403207483676_2_alg».proof.Proof.Spec
import proofs.«173860_j17403207483676_2_alg».proof.Proof.LibPadRead

noncomputable section

namespace Cert.WindowArrays

open Cert.KernelIdeal Cert.KernelIdeal.Gen Cert.Spec Idealize.ShloMosaic Idealize.ShloMosaic.ValueIdx Idealize.SL.Sem
open Idealize.ShloMosaic.TcCoe

variable (m : (ℓ : Loc nD τ sig) → Buf (Elt Ideal) ℓ) (c : Dev nD)

open Cert.LibPadRead

/-- The padding value: the integer zero read as a float is zero. -/
theorem pad_value (i : S_.Idx) : (sitofp .f32 (constantI S_ 32 0#32) : FVec Ideal S_ .f32) i = 0 := by
  show (((0#32 : BitVec 32).toInt : ℝ) : EReal) = 0
  simp

/-- The weights, read off the argument arrays as launched. -/
def W : Cert.Spec.Weights := Cert.Spec.weightsOf
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg9)) (m ((c : Thread nD τ).loc main_arg10)) (m ((c : Thread nD τ).loc main_arg11))
  (m ((c : Thread nD τ).loc main_arg12)) (m ((c : Thread nD τ).loc main_arg13))

/-! ## Slices, conversions and reshapes of one argument -/

theorem win_s (s : Fin 256) (k : Fin 1024) : V m c main_v1 (ix2 s k) = (W m c).Win (rowS s) k := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rw [truncf_apply]
  exact slice2_axis0_apply 0 _ _ s k (rowS s) (Nat.zero_add _).symm

theorem win_a (a : Fin 64) (k : Fin 1024) : V m c main_v3 (ix2 a k) = (W m c).Win (rowA a) k := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rw [truncf_apply]
  exact slice2_axis0_apply 256 _ _ a k (rowA a) rfl

theorem b_in (k : Fin 1024) : V m c main_v4 (ix2 0 k) = (W m c).bin k := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  exact shapeCast_a_1a_apply _ _ 0 k

theorem w_z (k : Fin 1024) (j : Fin 2048) : V m c main_v6 (ix2 k j) = (W m c).Wp k (colZ j) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rw [truncf_apply]
  exact slice2_axis1_apply 0 _ _ k j (colZ j) (Nat.zero_add _).symm

theorem w_x (k : Fin 1024) (j : Fin 2048) : V m c main_v8 (ix2 k j) = (W m c).Wp k (colX (chX j)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rw [truncf_apply]
  exact slice2_axis1_apply 2048 _ _ k j (colX (chX j)) rfl

theorem dt_bias (h : Fin 32) : V m c main_v36 (ix2 0 h) = (W m c).dtb h := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  exact shapeCast_a_1a_apply _ _ 0 h

theorem norm_w (j : Fin 2048) : V m c main_v48 (ix2 0 j) = (W m c).nw j := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  exact shapeCast_a_1a_apply _ _ 0 j

theorem w_outproj (j : Fin 2048) (k : Fin 1024) : V m c main_v49 (ix2 j k) = (W m c).Wop j k := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rfl

theorem w_out (k : Fin 1024) (q : Fin 256) : V m c main_v50 (ix2 k q) = (W m c).Wo k q := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rfl

theorem b_out (q : Fin 256) : V m c main_v51 (ix2 0 q) = (W m c).bo q := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  exact shapeCast_a_1a_apply _ _ 0 q

/-! ## Column stretches of the wide projection, padded with zeros to 128 columns -/

theorem w_B (k : Fin 1024) (n : Fin 128) : V m c main_v13 (ix2 k n) = if hn : n.val < 64 then (W m c).Wp k (colX (chB ⟨n.val, hn⟩)) else 0 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rw [truncf_apply]
  refine (pad2_apply (h := 64) _ _ pads_S1024x64_S1024x128_000_0640 h_S_ k n).trans ?_
  by_cases hn : n.val < 64
  · rw [dif_pos hn, dif_pos hn]
    exact slice2_axis1_apply 4096 _ slices_S1024x4256_S1024x64_0_4096 k ⟨n.val, hn⟩ (colX (chB ⟨n.val, hn⟩)) (by show 2048 + (2048 + n.val) = 4096 + n.val; omega)
  · rw [dif_neg hn, dif_neg hn]
    exact pad_value (Shape.Idx.first h_S_)

theorem w_C (k : Fin 1024) (n : Fin 128) : V m c main_v15 (ix2 k n) = if hn : n.val < 64 then (W m c).Wp k (colX (chC ⟨n.val, hn⟩)) else 0 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rw [truncf_apply]
  refine (pad2_apply (h := 64) _ _ pads_S1024x64_S1024x128_000_0640 h_S_ k n).trans ?_
  by_cases hn : n.val < 64
  · rw [dif_pos hn, dif_pos hn]
    exact slice2_axis1_apply 4160 _ slices_S1024x4256_S1024x64_0_4160 k ⟨n.val, hn⟩ (colX (chC ⟨n.val, hn⟩)) (by show 2048 + (2112 + n.val) = 4160 + n.val; omega)
  · rw [dif_neg hn, dif_neg hn]
    exact pad_value (Shape.Idx.first h_S_)

theorem w_dt (k : Fin 1024) (n : Fin 128) (hn : n.val < 32) : V m c main_v17 (ix2 k n) = (W m c).Wp k (colDt ⟨n.val, hn⟩) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rw [truncf_apply]
  refine (pad2_apply (h := 96) _ _ pads_S1024x32_S1024x128_000_0960 h_S_ k n).trans ?_
  rw [dif_pos hn]
  exact slice2_axis1_apply 4224 _ slices_S1024x4256_S1024x32_0_4224 k ⟨n.val, hn⟩ (colDt ⟨n.val, hn⟩) rfl

end Cert.WindowArrays

end
-- ==== Proof.WindowArrays2.lean ====
/-
  The operand arrays of the kernel, continued: the last tap of the convolution's weight and the convolution's
  bias, cut into the stretches of `x`, `B` and `C` (the last two padded with zeros to 128 entries), the per-head
  skip weight repeated over each head's 64 channels, and the one-hot matrix of head membership.
-/
import Idealize.ShloMosaic.Lib.ValueLayout
import Idealize.ShloMosaic.Lib.Pipeline.Value
import Idealize.ShloMosaic.Lib.ValueIdx
import Idealize.ShloMosaic.PureOps.Ideal
import proofs.«173860_j17403207483676_2_alg».proof.Proof.Gen.KernelIdeal.Frame
import proofs.«173860_j17403207483676_2_alg».proof.Proof.Spec
import proofs.«173860_j17403207483676_2_alg».proof.Proof.WindowArrays

noncomputable section

namespace Cert.WindowArrays

open Cert.KernelIdeal Cert.KernelIdeal.Gen Cert.Spec Idealize.ShloMosaic Idealize.ShloMosaic.ValueIdx Idealize.SL.Sem
open Idealize.ShloMosaic.TcCoe Cert.LibPadRead

variable (m : (ℓ : Loc nD τ sig) → Buf (Elt Ideal) ℓ) (c : Dev nD)

/-! ## The convolution's last tap and bias -/

/-- The last tap of the convolution's weight, as a vector over the channels. -/
theorem conv_tap (X : S2176x4.Idx → EReal) (j : Fin 2176) :
    shapeCast S2176 (extractStridedSlice S2176x1 ![0, 3] X slices_S2176x4_S2176x1_0_3) shapeCasts_S2176x1_S2176 (ix1 j)
      = X (ix2 j (3 : Fin 4)) :=
  (shapeCast_a1_a_apply _ _ j).trans (slice2_axis1_apply 3 X _ j (0 : Fin 1) (3 : Fin 4) rfl)

/-- A stretch of the last tap's vector from channel `o` on. -/
theorem conv_tap_slice (X : S2176x4.Idx → EReal) {n : ℕ} (o : ℕ) (h : S2176.Slices ![o] ⟨1, ![n]⟩) (j : Fin n) (k : Fin 2176)
    (hk : k.val = o + j.val) :
    extractStridedSlice ⟨1, ![n]⟩ ![o]
        (shapeCast S2176 (extractStridedSlice S2176x1 ![0, 3] X slices_S2176x4_S2176x1_0_3) shapeCasts_S2176x1_S2176) h (ix1 j)
      = X (ix2 k (3 : Fin 4)) :=
  (slice1_apply o _ h j k hk).trans (conv_tap X k)

theorem cw_x (j : Fin 2048) : V m c main_v21 (ix2 0 j) = (W m c).cw (chX j) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_a_1a_apply _ _ 0 j).trans ?_
  exact conv_tap_slice (m ((c : Thread nD τ).loc main_arg5)) 0 slices_S2176_S2048_0 j (chX j) (Nat.zero_add _).symm

theorem cb_x (j : Fin 2048) : V m c main_v29 (ix2 0 j) = (W m c).cb (chX j) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_a_1a_apply _ _ 0 j).trans ?_
  exact slice1_apply 0 (m ((c : Thread nD τ).loc main_arg6)) slices_S2176_S2048_0 j (chX j) (Nat.zero_add _).symm

theorem cw_B (n : Fin 128) : V m c main_v25 (ix2 0 n) = if hn : n.val < 64 then (W m c).cw (chB ⟨n.val, hn⟩) else 0 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_a_1a_apply _ _ 0 n).trans ?_
  refine (pad1_apply (h := 64) _ _ pads_S64_S128_0640 h_S_ n).trans ?_
  by_cases hn : n.val < 64
  · rw [dif_pos hn, dif_pos hn]
    exact conv_tap_slice (m ((c : Thread nD τ).loc main_arg5)) 2048 slices_S2176_S64_2048 ⟨n.val, hn⟩ (chB ⟨n.val, hn⟩) rfl
  · rw [dif_neg hn, dif_neg hn]
    exact pad_value (Shape.Idx.first h_S_)

theorem cb_B (n : Fin 128) : V m c main_v33 (ix2 0 n) = if hn : n.val < 64 then (W m c).cb (chB ⟨n.val, hn⟩) else 0 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_a_1a_apply _ _ 0 n).trans ?_
  refine (pad1_apply (h := 64) _ _ pads_S64_S128_0640 h_S_ n).trans ?_
  by_cases hn : n.val < 64
  · rw [dif_pos hn, dif_pos hn]
    exact slice1_apply 2048 (m ((c : Thread nD τ).loc main_arg6)) slices_S2176_S64_2048 ⟨n.val, hn⟩ (chB ⟨n.val, hn⟩) rfl
  · rw [dif_neg hn, dif_neg hn]
    exact pad_value (Shape.Idx.first h_S_)

theorem cw_C (n : Fin 128) : V m c main_v27 (ix2 0 n) = if hn : n.val < 64 then (W m c).cw (chC ⟨n.val, hn⟩) else 0 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_a_1a_apply _ _ 0 n).trans ?_
  refine (pad1_apply (h := 64) _ _ pads_S64_S128_0640 h_S_ n).trans ?_
  by_cases hn : n.val < 64
  · rw [dif_pos hn, dif_pos hn]
    exact conv_tap_slice (m ((c : Thread nD τ).loc main_arg5)) 2112 slices_S2176_S64_2112 ⟨n.val, hn⟩ (chC ⟨n.val, hn⟩) rfl
  · rw [dif_neg hn, dif_neg hn]
    exact pad_value (Shape.Idx.first h_S_)

theorem cb_C (n : Fin 128) : V m c main_v35 (ix2 0 n) = if hn : n.val < 64 then (W m c).cb (chC ⟨n.val, hn⟩) else 0 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_a_1a_apply _ _ 0 n).trans ?_
  refine (pad1_apply (h := 64) _ _ pads_S64_S128_0640 h_S_ n).trans ?_
  by_cases hn : n.val < 64
  · rw [dif_pos hn, dif_pos hn]
    exact slice1_apply 2112 (m ((c : Thread nD τ).loc main_arg6)) slices_S2176_S64_2112 ⟨n.val, hn⟩ (chC ⟨n.val, hn⟩) rfl
  · rw [dif_neg hn, dif_neg hn]
    exact pad_value (Shape.Idx.first h_S_)

/-! ## A per-head value repeated over the head's channels, and the matrix that repeats it -/

/-- Equality of two small naturals tested on their 32-bit words and read as a float: one where they agree, zero elsewhere. -/
theorem onehot_scalar (h g : Fin 32) :
    (FloatOps.uitofp (F := Ideal) .f32 (IntOp.cmpi .eq (IntOp.addi (BitVec.ofNat 32 h.val) 0#32) (BitVec.ofNat 32 g.val)) : EReal)
      = if h = g then 1 else 0 := by
  show (((IntOp.cmpi .eq (IntOp.addi (BitVec.ofNat 32 h.val) 0#32) (BitVec.ofNat 32 g.val)).toNat : ℝ) : EReal) = _
  by_cases hg : h = g
  · subst hg
    rw [if_pos rfl]
    simp [IntOp.cmpi, IntOp.addi]
  · rw [if_neg hg]
    have hne : ¬ (BitVec.ofNat 32 h.val = BitVec.ofNat 32 g.val) := by
      intro heq
      have h2 := congrArg BitVec.toNat heq
      rw [BitVec.toNat_ofNat, BitVec.toNat_ofNat] at h2
      have := h.isLt
      have := g.isLt
      apply hg
      apply Fin.ext
      omega
    simp [IntOp.cmpi, IntOp.addi, hne]

theorem d_full (j : Fin 2048) : V m c main_v39 (ix2 0 j) = (W m c).D (head j) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_a_1a_apply _ _ 0 j).trans ?_
  refine (shapeCast_apply (broadcastInDim S32x64 ![0] bcast_S32_S32x64_0 (m ((c : Thread nD τ).loc main_arg9))) shapeCasts_S32x64_S2048 (ix1 j)
    (ix2 (head j) ⟨j.val % 64, Nat.mod_lt _ (by decide)⟩) ?_).trans ?_
  · rw [Shape.rowMajor_val_two, Shape.rowMajor_val_one]
    show j.val / 64 * 64 + j.val % 64 = j.val
    omega
  · exact broadcastInDim_apply ![0] bcast_S32_S32x64_0 (m ((c : Thread nD τ).loc main_arg9)) (ix2 (head j) ⟨j.val % 64, Nat.mod_lt _ (by decide)⟩)
      (ix1 (head j)) (fun a => by
      match a with
      | ⟨0, _⟩ =>
        show (head j).val = if (32 : ℕ) = 1 then 0 else (head j).val
        rw [if_neg (by decide)])

theorem «repeat» (h : Fin 32) (j : Fin 2048) : V m c main_v47 (ix2 h j) = if h = head j then (1 : EReal) else 0 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  refine (shapeCast_apply _ shapeCasts_S32x32x64_S32x2048 (ix2 h j)
    (ix3 h (head j) ⟨j.val % 64, Nat.mod_lt _ (by decide)⟩) ?_).trans ?_
  · rw [Shape.rowMajor_val_three, Shape.rowMajor_val_two]
    show (h.val * 32 + j.val / 64) * 64 + j.val % 64 = h.val * 2048 + j.val
    omega
  · refine (broadcastInDim_apply ![0, 1] bcast_S32x32_S32x32x64_0_1 _ (ix3 h (head j) ⟨j.val % 64, Nat.mod_lt _ (by decide)⟩)
      (ix2 h (head j)) (fun a => by
      match a with
      | ⟨0, _⟩ =>
        show h.val = if (32 : ℕ) = 1 then 0 else h.val
        rw [if_neg (by decide)]
      | ⟨1, _⟩ =>
        show (head j).val = if (32 : ℕ) = 1 then 0 else (head j).val
        rw [if_neg (by decide)])).trans ?_
    exact onehot_scalar h (head j)

end Cert.WindowArrays

end
-- ==== Proof.ReferenceRow.lean ====
/-
  The reference program read row by row.

  Every stage of the reference's array program, read at a row `r` and a column, is the corresponding function of
  `Cert.Spec` at that row's state and action entries: the joined input (`cat`), the input layer (`x0`), the wide
  projection (`proj`), the convolved and activated channels (`xbc`), the step sizes (`dt`), the inner product of the
  `B` and `C` channels (`bc`), the collapsed scan (`ssm`), the gated value (`gated`), the mean of squares (`meanSq`),
  the normalised value (`normed`) and the two output layers (`out1`, `out`). The whole result array is `Cert.Spec.G`.
-/
import proofs.«173860_j17403207483676_2_alg».proof.Proof.Gen.ReferenceIdeal.Read
import proofs.«173860_j17403207483676_2_alg».proof.Proof.Spec
import proofs.«173860_j17403207483676_2_alg».proof.Proof.LibMatProduct
import Idealize.ShloMosaic.Lib.Pipeline.Value
import Idealize.ShloMosaic.Lib.ValueIdx
import Idealize.ShloMosaic.PureOps.Ideal.Laws

noncomputable section

namespace Cert.RefRow

open Cert.ReferenceIdeal Cert.ReferenceIdeal.Read Idealize.ShloMosaic Idealize.ShloMosaic.ValueIdx

/-- Two indices of rank 1, 2 or 3 are equal when each coordinate of one is, by computation, that of the other. -/
macro "idx1_rfl" : tactic => `(tactic| (funext a; match a with | ⟨0, _⟩ => rfl))
@[inherit_doc tacticIdx1_rfl]
macro "idx2_rfl" : tactic => `(tactic| (funext a; match a with | ⟨0, _⟩ => rfl | ⟨1, _⟩ => rfl))
@[inherit_doc tacticIdx1_rfl]
macro "idx3_rfl" : tactic => `(tactic| (funext a; match a with | ⟨0, _⟩ => rfl | ⟨1, _⟩ => rfl | ⟨2, _⟩ => rfl))

/-- A value is never different from itself. -/
theorem cmp_une_self (x : EReal) : Ideal.cmp .une x x = 0#1 := by simp [Ideal.cmp]

/-- The position of channel `j` of `x` inside its head. -/
def lane (j : Fin 2048) : Fin 64 := ⟨j.val % 64, Nat.mod_lt _ (by decide)⟩

variable (x0 : (⟨S16384x256, .f32⟩ : BufTy).Contents (Elt Ideal)) (x1 : (⟨S16384x64, .f32⟩ : BufTy).Contents (Elt Ideal))
  (x2 : (⟨S320x1024, .f32⟩ : BufTy).Contents (Elt Ideal)) (x3 : (⟨S1024, .f32⟩ : BufTy).Contents (Elt Ideal))
  (x4 : (⟨S1024x4256, .f32⟩ : BufTy).Contents (Elt Ideal)) (x5 : (⟨S2176x4, .f32⟩ : BufTy).Contents (Elt Ideal))
  (x6 : (⟨S2176, .f32⟩ : BufTy).Contents (Elt Ideal)) (x7 x9 : (⟨S32, .f32⟩ : BufTy).Contents (Elt Ideal))
  (x10 : (⟨S2048, .f32⟩ : BufTy).Contents (Elt Ideal)) (x11 : (⟨S2048x1024, .f32⟩ : BufTy).Contents (Elt Ideal))
  (x12 : (⟨S1024x256, .f32⟩ : BufTy).Contents (Elt Ideal)) (x13 : (⟨S256, .f32⟩ : BufTy).Contents (Elt Ideal))

local notation "𝐖" => Spec.weightsOf x2 x3 x4 x5 x6 x7 x9 x10 x11 x12 x13
local notation "𝐬[" r "]" => ((fun s : Fin 256 => x0 (ix2 r s)) : Fin 256 → EReal)
local notation "𝐚[" r "]" => ((fun a : Fin 64 => x1 (ix2 r a)) : Fin 64 → EReal)

/-- The joined array at `(r, j)` is the state entry `j` below 256 and the action entry `j - 256` from there on. -/
theorem cat_eq (r : Fin 16384) (j : Fin 320) :
    val_main_v0 (F := Ideal) x0 x1 (ix2 r j) = Spec.cat 𝐬[r] 𝐚[r] j := by
  unfold val_main_v0 Spec.cat
  by_cases h : j.val < 256
  · rw [dif_pos h]
    exact concatenate_pair_apply_left (1 : Fin S16384x320.rank) x0 x1 _ (ix2 r j) rfl (ix2 r ⟨j.val, h⟩)
      (fun b => match b with | ⟨0, _⟩ => rfl | ⟨1, _⟩ => rfl)
  · rw [dif_neg h]
    exact concatenate_pair_apply_right (1 : Fin S16384x320.rank) x0 x1 _ (ix2 r j) rfl rfl
      (ix2 r ⟨j.val - 256, by have := j.isLt; omega⟩)
      (fun b => match b with | ⟨0, _⟩ => fun _ => rfl | ⟨1, _⟩ => fun hb => absurd rfl hb)
      (by show (j.val - 256) + 256 = j.val; omega)

/-- The input layer. -/
theorem x0_eq (r : Fin 16384) (k : Fin 1024) :
    val_main_v4 (F := Ideal) x0 x1 x2 x3 (ix2 r k) = Spec.x0 𝐖 𝐬[r] 𝐚[r] k := by
  rw [val_main_v4_apply, val_main_v1_apply, val_main_v3_apply, val_main_v2_apply]
  simp only [Ideal.addf_def]
  unfold Spec.x0
  refine congrArg₂ (· + ·) (Finset.sum_congr rfl fun j _ => ?_) ?_
  · rw [show lidx_main_v1 (ix2 r k) j = ix2 r j from by idx2_rfl, cat_eq x0 x1 r j,
      show ridx_main_v1 (ix2 r k) j = ix2 j k from by idx2_rfl]
    rfl
  · show x3 _ = x3 (ix1 k)
    exact congrArg x3 (by idx1_rfl)

/-- The wide projection. -/
theorem proj_eq (r : Fin 16384) (c : Fin 4256) :
    val_main_v5 (F := Ideal) x0 x1 x2 x3 x4 (ix2 r c) = Spec.proj 𝐖 𝐬[r] 𝐚[r] c := by
  rw [val_main_v5_apply]
  unfold Spec.proj
  refine Finset.sum_congr rfl fun k _ => ?_
  rw [show lidx_main_v5 (ix2 r c) k = ix2 r k from by idx2_rfl, x0_eq x0 x1 x2 x3 x4 x5 x6 x7 x9 x10 x11 x12 x13 r k,
    show ridx_main_v5 (ix2 r c) k = ix2 k c from by idx2_rfl]
  rfl

/-- The last tap of the convolution with its bias, before the activation. -/
theorem conv_eq (r : Fin 16384) (j : Fin 2176) :
    val_main_v16 (F := Ideal) x0 x1 x2 x3 x4 x5 x6 (ix2 r j)
      = Spec.proj 𝐖 𝐬[r] 𝐚[r] (Spec.colX j) * Spec.Weights.cw 𝐖 j + Spec.Weights.cb 𝐖 j := by
  rw [val_main_v16_apply, val_main_v13_apply, val_main_v7_apply, val_main_v12_apply, val_main_v11_apply, val_main_v10_apply,
    val_main_v9_apply, val_main_v15_apply, val_main_v14_apply,
    show idx_main_v7 (ix2 r j) = ix2 r (Spec.colX j) from by idx2_rfl, proj_eq x0 x1 x2 x3 x4 x5 x6 x7 x9 x10 x11 x12 x13 r (Spec.colX j)]
  simp only [Ideal.addf_def, Ideal.mulf_def]
  refine congrArg₂ (· + ·) (congrArg₂ (· * ·) rfl ?_) ?_
  · show x5 _ = x5 (ix2 j (3 : Fin 4))
    refine congrArg x5 (funext fun a => ?_)
    match a with
    | ⟨0, _⟩ => exact Fin.ext (Nat.div_one _)
    | ⟨1, _⟩ => rfl
  · show x6 _ = x6 (ix1 j)
    exact congrArg x6 (by idx1_rfl)

/-- The convolved and activated channels. -/
theorem xbc_eq (r : Fin 16384) (j : Fin 2176) :
    val_main_v17 (F := Ideal) x0 x1 x2 x3 x4 x5 x6 (ix2 r j) = Spec.xbc 𝐖 𝐬[r] 𝐚[r] j := by
  rw [val_main_v17_apply, val_main_call0_v5_apply, val_main_call0_v4_apply, val_main_call0_cst_0_apply, val_main_call0_v3_apply,
    val_main_call0_v2_apply, val_main_call0_cst_apply, val_main_call0_v1_apply, val_main_call0_v0_apply, conv_eq x0 x1 x2 x3 x4 x5 x6 x7 x9 x10 x11 x12 x13 r j]
  simp only [Ideal.addf_def, Ideal.mulf_def, Ideal.hostDivf_def, Ideal.hostUnary_exp_def, Ideal.hostNegf_def, Ideal.negf_def,
    Ideal.ofBits_def, LibMatProduct.one_word]
  rfl

/-- The step's pre-activation: the projection's step column plus the bias. -/
theorem dtpre_eq (r : Fin 16384) (h : Fin 32) :
    val_main_v23 (F := Ideal) x0 x1 x2 x3 x4 x7 (ix2 r h)
      = Spec.proj 𝐖 𝐬[r] 𝐚[r] (Spec.colDt h) + Spec.Weights.dtb 𝐖 h := by
  rw [val_main_v23_apply, val_main_v8_apply, val_main_v22_apply, val_main_v21_apply,
    show idx_main_v8 (ix2 r h) = ix2 r (Spec.colDt h) from by idx2_rfl, proj_eq x0 x1 x2 x3 x4 x5 x6 x7 x9 x10 x11 x12 x13 r (Spec.colDt h)]
  simp only [Ideal.addf_def]
  refine congrArg₂ (· + ·) rfl ?_
  show x7 _ = x7 (ix1 h)
  exact congrArg x7 (by idx1_rfl)

/-- The step sizes: no value differs from itself, so the guarded branch is never taken and the stable form remains. -/
theorem dt_eq (r : Fin 16384) (h : Fin 32) :
    val_main_v24 (F := Ideal) x0 x1 x2 x3 x4 x7 (ix2 r h) = Spec.dt 𝐖 𝐬[r] 𝐚[r] h := by
  have hc : ∀ x : EReal, FloatOps.cmpf (F := Ideal) (φ := .f32) .une x x = 0#1 := fun x => cmp_une_self x
  rw [val_main_v24_apply, val_main_call1_v4_apply, hc, select_zero, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_cst_apply, dtpre_eq x0 x1 x2 x3 x4 x5 x6 x7 x9 x10 x11 x12 x13 r h]
  simp only [Ideal.addf_def, Ideal.subf_def, Ideal.maximumf_def, Ideal.hostUnary_log1p_def, Ideal.hostUnary_exp_def, Ideal.hostNegf_def,
    Ideal.negf_def, Ideal.hostAbsf_def, Ideal.ofBits_def, Ideal.ofBits_zero_f32, sub_zero]
  rfl

/-- The inner product of the `B` and `C` channels. -/
theorem bc_eq (r : Fin 16384) :
    val_main_v27 (F := Ideal) x0 x1 x2 x3 x4 x5 x6 (ix1 r) = Spec.bc 𝐖 𝐬[r] 𝐚[r] := by
  rw [val_main_v27_apply, val_main_cst_apply]
  simp only [Ideal.ofBits_def, Ideal.ofBits_zero_f32, zero_add]
  unfold Spec.bc
  refine Finset.sum_congr rfl fun n _ => ?_
  rw [val_main_v26_apply, val_main_v19_apply, val_main_v20_apply,
    show idx_main_v19 (idx_main_v27 (ix1 r) n) = ix2 r (Spec.chB n) from by idx2_rfl,
    show idx_main_v20 (idx_main_v27 (ix1 r) n) = ix2 r (Spec.chC n) from by idx2_rfl,
    xbc_eq x0 x1 x2 x3 x4 x5 x6 x7 x9 x10 x11 x12 x13 r (Spec.chB n), xbc_eq x0 x1 x2 x3 x4 x5 x6 x7 x9 x10 x11 x12 x13 r (Spec.chC n)]
  rfl

/-- The step size times the inner product. -/
theorem dtbc_eq (r : Fin 16384) (h : Fin 32) :
    val_main_v30 (F := Ideal) x0 x1 x2 x3 x4 x5 x6 x7 (ix2 r h) = Spec.dt 𝐖 𝐬[r] 𝐚[r] h * Spec.bc 𝐖 𝐬[r] 𝐚[r] := by
  rw [val_main_v30_apply, val_main_v29_apply, val_main_v28_apply, dt_eq x0 x1 x2 x3 x4 x5 x6 x7 x9 x10 x11 x12 x13 r h,
    show idx_main_v28 (idx_main_v29 (ix2 r h)) = ix1 r from by idx1_rfl, bc_eq x0 x1 x2 x3 x4 x5 x6 x7 x9 x10 x11 x12 x13 r]
  rfl

/-- Channel `j` of `x`, found in the head layout at head `j / 64` and position `j % 64`. -/
theorem xh_eq (r : Fin 16384) (j : Fin 2048) :
    val_main_v25 (F := Ideal) x0 x1 x2 x3 x4 x5 x6 (ix3 r (Spec.head j) (lane j)) = Spec.xbc 𝐖 𝐬[r] 𝐚[r] (Spec.chX j) := by
  have e : idx_main_v18 (idx_main_v25 (ix3 r (Spec.head j) (lane j))) = ix2 r (Spec.chX j) := by
    funext a
    match a with
    | ⟨0, _⟩ =>
      exact Fin.ext (by
        show ((r.val * 32 + j.val / 64) * 64 + j.val % 64) / 2048 = r.val
        have := j.isLt; omega)
    | ⟨1, _⟩ =>
      exact Fin.ext (by
        show ((r.val * 32 + j.val / 64) * 64 + j.val % 64) % 2048 = j.val
        have := j.isLt; omega)
  rw [val_main_v25_apply, val_main_v18_apply, e, xbc_eq x0 x1 x2 x3 x4 x5 x6 x7 x9 x10 x11 x12 x13 r (Spec.chX j)]

/-- The collapsed scan. -/
theorem ssm_eq (r : Fin 16384) (j : Fin 2048) :
    val_main_v38 (F := Ideal) x0 x1 x2 x3 x4 x5 x6 x7 x9 (ix2 r j) = Spec.ssm 𝐖 𝐬[r] 𝐚[r] j := by
  have e38 : idx_main_v38 (ix2 r j) = ix3 r (Spec.head j) (lane j) := by
    funext a
    match a with
    | ⟨0, _⟩ =>
      exact Fin.ext (by
        show (r.val * 2048 + j.val) / 2048 = r.val
        have := j.isLt; omega)
    | ⟨1, _⟩ =>
      exact Fin.ext (by
        show (r.val * 2048 + j.val) / 64 % 32 = j.val / 64
        have := j.isLt; omega)
    | ⟨2, _⟩ =>
      exact Fin.ext (by
        show (r.val * 2048 + j.val) % 64 = j.val % 64
        omega)
  rw [val_main_v38_apply, e38, val_main_v37_apply, val_main_v33_apply, val_main_v36_apply, val_main_v32_apply, val_main_v31_apply,
    val_main_v35_apply, val_main_v34_apply, xh_eq x0 x1 x2 x3 x4 x5 x6 x7 x9 x10 x11 x12 x13 r j,
    show idx_main_v31 (idx_main_v32 (ix3 r (Spec.head j) (lane j))) = ix2 r (Spec.head j) from by idx2_rfl,
    dtbc_eq x0 x1 x2 x3 x4 x5 x6 x7 x9 x10 x11 x12 x13 r (Spec.head j)]
  simp only [Ideal.addf_def, Ideal.mulf_def]
  unfold Spec.ssm
  refine congrArg₂ (· + ·) rfl (congrArg₂ (· * ·) ?_ rfl)
  show x9 _ = x9 (ix1 (Spec.head j))
  exact congrArg x9 (by idx1_rfl)

/-- The gated value. -/
theorem gated_eq (r : Fin 16384) (j : Fin 2048) :
    val_main_v40 (F := Ideal) x0 x1 x2 x3 x4 x5 x6 x7 x9 (ix2 r j) = Spec.gated 𝐖 𝐬[r] 𝐚[r] j := by
  rw [val_main_v40_apply, ssm_eq x0 x1 x2 x3 x4 x5 x6 x7 x9 x10 x11 x12 x13 r j, val_main_v39_apply, val_main_call2_v5_apply, val_main_call2_v4_apply,
    val_main_call2_cst_0_apply, val_main_call2_v3_apply, val_main_call2_v2_apply, val_main_call2_cst_apply, val_main_call2_v1_apply,
    val_main_call2_v0_apply, val_main_v6_apply,
    show idx_main_v6 (ix2 r j) = ix2 r (Spec.colZ j) from by idx2_rfl, proj_eq x0 x1 x2 x3 x4 x5 x6 x7 x9 x10 x11 x12 x13 r (Spec.colZ j)]
  simp only [Ideal.addf_def, Ideal.mulf_def, Ideal.hostDivf_def, Ideal.hostUnary_exp_def, Ideal.hostNegf_def, Ideal.negf_def,
    Ideal.ofBits_def, LibMatProduct.one_word]
  rfl

/-- The mean of squares plus epsilon. -/
theorem meanSq_eq (r : Fin 16384) :
    val_main_v47 (F := Ideal) x0 x1 x2 x3 x4 x5 x6 x7 x9 (ix2 r (0 : Fin 1)) = Spec.meanSq 𝐖 𝐬[r] 𝐚[r] := by
  rw [val_main_v47_apply, val_main_v45_apply, val_main_v43_apply, val_main_v42_apply, val_main_cst_0_apply, val_main_v44_apply,
    val_main_cst_1_apply, val_main_v46_apply, val_main_cst_2_apply]
  simp only [Ideal.addf_def, Ideal.hostDivf_def, Ideal.ofBits_def, Ideal.ofBits_zero_f32, zero_add]
  unfold Spec.meanSq
  refine congrArg₂ (· + ·) (congrArg₂ Ideal.div (Finset.sum_congr rfl fun k _ => ?_) rfl) rfl
  rw [val_main_v41_apply, show idx_main_v42 (idx_main_v43 (ix2 r (0 : Fin 1))) k = ix2 r k from by idx2_rfl, gated_eq x0 x1 x2 x3 x4 x5 x6 x7 x9 x10 x11 x12 x13 r k]
  rfl

/-- The normalised value. -/
theorem normed_eq (r : Fin 16384) (j : Fin 2048) :
    val_main_v53 (F := Ideal) x0 x1 x2 x3 x4 x5 x6 x7 x9 x10 (ix2 r j) = Spec.normed 𝐖 𝐬[r] 𝐚[r] j := by
  rw [val_main_v53_apply, val_main_v50_apply, gated_eq x0 x1 x2 x3 x4 x5 x6 x7 x9 x10 x11 x12 x13 r j, val_main_v49_apply, val_main_v48_apply, val_main_v52_apply,
    val_main_v51_apply, show idx_main_v49 (ix2 r j) = ix2 r (0 : Fin 1) from by idx2_rfl, meanSq_eq x0 x1 x2 x3 x4 x5 x6 x7 x9 x10 x11 x12 x13 r]
  simp only [Ideal.mulf_def, Ideal.hostUnary_rsqrt_def]
  unfold Spec.normed
  refine congrArg₂ (· * ·) rfl ?_
  show x10 _ = x10 (ix1 j)
  exact congrArg x10 (by idx1_rfl)

/-- The output projection. -/
theorem out1_eq (r : Fin 16384) (k : Fin 1024) :
    val_main_v54 (F := Ideal) x0 x1 x2 x3 x4 x5 x6 x7 x9 x10 x11 (ix2 r k) = Spec.out1 𝐖 𝐬[r] 𝐚[r] k := by
  rw [val_main_v54_apply]
  unfold Spec.out1
  refine Finset.sum_congr rfl fun j _ => ?_
  rw [show lidx_main_v54 (ix2 r k) j = ix2 r j from by idx2_rfl, normed_eq x0 x1 x2 x3 x4 x5 x6 x7 x9 x10 x11 x12 x13 r j,
    show ridx_main_v54 (ix2 r k) j = ix2 j k from by idx2_rfl]
  rfl

/-- The output layer. -/
theorem out_eq (r : Fin 16384) (q : Fin 256) :
    val_main_v58 (F := Ideal) x0 x1 x2 x3 x4 x5 x6 x7 x9 x10 x11 x12 x13 (ix2 r q) = Spec.out 𝐖 𝐬[r] 𝐚[r] q := by
  rw [val_main_v58_apply, val_main_v55_apply, val_main_v57_apply, val_main_v56_apply]
  simp only [Ideal.addf_def]
  unfold Spec.out
  refine congrArg₂ (· + ·) (Finset.sum_congr rfl fun k _ => ?_) ?_
  · rw [show lidx_main_v55 (ix2 r q) k = ix2 r k from by idx2_rfl, out1_eq x0 x1 x2 x3 x4 x5 x6 x7 x9 x10 x11 x12 x13 r k,
      show ridx_main_v55 (ix2 r q) k = ix2 k q from by idx2_rfl]
    rfl
  · show x13 _ = x13 (ix1 q)
    exact congrArg x13 (by idx1_rfl)

/-- The reference's whole result is the specification's array: row `i 0`'s output `i 1` at every index `i`. -/
theorem ref_eq :
    val_main_v58 (F := Ideal) x0 x1 x2 x3 x4 x5 x6 x7 x9 x10 x11 x12 x13 = Spec.G 𝐖 x0 x1 := by
  funext i
  obtain ⟨r, q, rfl⟩ : ∃ (r : Fin 16384) (q : Fin 256), i = ix2 r q := ⟨i 0, i 1, eq_ix2 i⟩
  exact out_eq x0 x1 x2 x3 x4 x5 x6 x7 x9 x10 x11 x12 x13 r q

end Cert.RefRow

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.FiniteArgs.lean ====
/-
  From the precondition to real numbers.

  The precondition is the conjunction, array by array, of "every entry's absolute value is below +∞".
  On the extended reals `max v (-v) < ⊤` says that `v` is neither infinity, that is, a real number.  So under
  the precondition every weight and every state and action entry is a real number.
-/
import proofs.«173860_j17403207483676_2_alg».proof.Defs
import proofs.«173860_j17403207483676_2_alg».proof.Proof.LibFiniteEntry
import proofs.«173860_j17403207483676_2_alg».proof.Proof.KernelRow
import Idealize.ShloMosaic.Lib.ReduceAll
import Idealize.ShloMosaic.Lib.Affine
import Idealize.ShloMosaic.Lib.ValueIdx

noncomputable section

namespace Cert.FiniteArgs

open Idealize.ShloMosaic Idealize.ShloMosaic.ValueIdx Cert.Pre_finite_inputs Cert.RowAlgebra Cert.KernelRow Cert.LibRealEntries

instance : Subsingleton S_.Idx := ⟨fun a b => funext fun d => d.elim0⟩

/-- Both operands of a one-bit `and` that is 1 are 1. -/
theorem and_split (X Y : IVec S_ 1) (h : andi X Y ix0 = 1#1) : X ix0 = 1#1 ∧ Y ix0 = 1#1 :=
  IntOp.andi_eq_one.mp h

/-- An array whose "all entries are below +∞ in absolute value" test is 1 holds real numbers. -/
theorem real_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : IsReal (a i) :=
  Cert.FiniteEntry.real_of_test (a i) (Host.reduce_andi_all _ _ hr hu ix0 h i)

variable [Cert.Pre_finite_inputs.Facts]

/-- Under the precondition the weights, the state and the action hold real numbers. -/
theorem entries_real (a0 : FVec Ideal S16384x256 .f32) (a1 : FVec Ideal S16384x64 .f32) (a2 : FVec Ideal S320x1024 .f32) (a3 : FVec Ideal S1024 .f32) (a4 : FVec Ideal S1024x4256 .f32) (a5 : FVec Ideal S2176x4 .f32) (a6 : FVec Ideal S2176 .f32) (a7 a8 a9 : FVec Ideal S32 .f32) (a10 : FVec Ideal S2048 .f32) (a11 : FVec Ideal S2048x1024 .f32) (a12 : FVec Ideal S1024x256 .f32) (a13 : FVec Ideal S256 .f32)
    (h : Cert.Pre_finite_inputs.fn (F := Ideal) a0 a1 a2 a3 a4 a5 a6 a7 a8 a9 a10 a11 a12 a13 = fun _ => 1#1) :
    RealWeights (Cert.Spec.weightsOf a2 a3 a4 a5 a6 a7 a9 a10 a11 a12 a13) ∧ (∀ i, IsReal (a0 i)) ∧ (∀ i, IsReal (a1 i)) := by
  have h0 := congrFun h ix0
  dsimp only [Cert.Pre_finite_inputs.fn, fn_part1, fn_part2, fn_part3, fn_part4] at h0
  obtain ⟨h0, _⟩ := and_split _ _ h0
  obtain ⟨h0, _⟩ := and_split _ _ h0
  obtain ⟨h0, _⟩ := and_split _ _ h0
  obtain ⟨h0, _⟩ := and_split _ _ h0
  obtain ⟨h0, e9⟩ := and_split _ _ h0
  obtain ⟨h0, _⟩ := and_split _ _ h0
  obtain ⟨h0, _⟩ := and_split _ _ h0
  obtain ⟨h0, e6⟩ := and_split _ _ h0
  obtain ⟨h0, e5⟩ := and_split _ _ h0
  obtain ⟨h0, e4⟩ := and_split _ _ h0
  obtain ⟨h0, e3⟩ := and_split _ _ h0
  obtain ⟨h0, e2⟩ := and_split _ _ h0
  obtain ⟨e0, e1⟩ := and_split _ _ h0
  refine ⟨⟨fun j k => real_of_all a2 _ _ _ e2 _, fun k => real_of_all a3 _ _ _ e3 _, fun k c => real_of_all a4 _ _ _ e4 _,
    fun j => real_of_all a5 _ _ _ e5 _, fun j => real_of_all a6 _ _ _ e6 _, fun h => real_of_all a9 _ _ _ e9 _⟩,
    fun i => real_of_all a0 _ _ _ e0 i, fun i => real_of_all a1 _ _ _ e1 i⟩

end Cert.FiniteArgs

end
-- ==== Proof.lean ====
/-
  One step of a Mamba-2 dynamics model with sequence length one, 16384 rows at a time: a Pallas kernel against
  its jnp reference, equal as extended reals under finite inputs.

  Both programs compute, row by row, the function `Cert.Spec.out` (Proof/Spec.lean).  The reference does so
  operation by operation (Proof/ReferenceRow.lean).  The kernel works on blocks of 256 rows and on weights the
  wrapper has cut, padded and repeated (Proof/WindowArrays.lean, Proof/WindowArrays2.lean); entry `(p, q)` of
  the block it stores is the row computation in its own arrangement (Proof/Payload.lean, Proof/KernelRow.lean),
  the 64 blocks tile the result (Proof/Blocks.lean, Proof/BlocksResult.lean), and the two arrangements agree (Proof/RowAlgebra.lean):
  splitting a sum, dropping lanes that hold zero, selecting with a zero-one row, and the distributive law
  `x · (a + b) = x · a + b · x`, which on the extended reals needs `x` and `b` real — the one use of the
  precondition (Proof/FiniteArgs.lean).  The idealization rewrote nothing, so `preserves` is trivial, and the
  three frames are the generated ones.
-/
import proofs.«173860_j17403207483676_2_alg».proof.Defs
import proofs.«173860_j17403207483676_2_alg».proof.Proof.Gen.Kernel
import proofs.«173860_j17403207483676_2_alg».proof.Proof.Gen.Kernel.Skeleton
import proofs.«173860_j17403207483676_2_alg».proof.Proof.Gen.Kernel.Launch
import proofs.«173860_j17403207483676_2_alg».proof.Proof.Gen.Kernel.Points
import proofs.«173860_j17403207483676_2_alg».proof.Proof.Gen.Kernel.Frame
import proofs.«173860_j17403207483676_2_alg».proof.Proof.Gen.KernelIdeal
import proofs.«173860_j17403207483676_2_alg».proof.Proof.Gen.KernelIdeal.Skeleton
import proofs.«173860_j17403207483676_2_alg».proof.Proof.Gen.KernelIdeal.Launch
import proofs.«173860_j17403207483676_2_alg».proof.Proof.Gen.KernelIdeal.Points
import proofs.«173860_j17403207483676_2_alg».proof.Proof.Gen.KernelIdeal.Frame
import proofs.«173860_j17403207483676_2_alg».proof.Proof.Gen.ReferenceIdeal
import proofs.«173860_j17403207483676_2_alg».proof.Proof.Gen.Pre_finite_inputs
import proofs.«173860_j17403207483676_2_alg».proof.Proof.Gen.KernelIdeal.Value
import proofs.«173860_j17403207483676_2_alg».proof.Proof.Gen.ReferenceIdeal.Run
import proofs.«173860_j17403207483676_2_alg».proof.Proof.Gen.ReferenceIdeal.Read
import proofs.«173860_j17403207483676_2_alg».proof.Proof.BlocksResult
import proofs.«173860_j17403207483676_2_alg».proof.Proof.WindowArrays2
import proofs.«173860_j17403207483676_2_alg».proof.Proof.ReferenceRow
import proofs.«173860_j17403207483676_2_alg».proof.Proof.FiniteArgs
import Idealize.ShloMosaic.Adequacy
import Idealize.ShloMosaic.Init

noncomputable section

namespace Cert.Proof

open Idealize.ShloMosaic Idealize.ShloMosaic.TcCoe Idealize.SL.Sem

/-- The kernel's weight windows hold the weights as the wrapper prepares them. -/
theorem prepared (m : (ℓ : Loc Cert.KernelIdeal.nD Cert.KernelIdeal.τ Cert.KernelIdeal.sig) → Buf (Elt Ideal) ℓ)
    (c : Dev Cert.KernelIdeal.nD) : Cert.KernelRow.Prepared (Cert.Blocks.Q m c) (Cert.WindowArrays.W m c) where
  ws := by
    intro i k
    dsimp only [Cert.Blocks.Q, Cert.Blocks.QA, Cert.Blocks.AV, Cert.Payload.windowsOf]
    exact Cert.WindowArrays.win_s m c i k
  wa := by
    intro i k
    dsimp only [Cert.Blocks.Q, Cert.Blocks.QA, Cert.Blocks.AV, Cert.Payload.windowsOf]
    exact Cert.WindowArrays.win_a m c i k
  bin := by
    intro k
    dsimp only [Cert.Blocks.Q, Cert.Blocks.QA, Cert.Blocks.AV, Cert.Payload.windowsOf]
    exact Cert.WindowArrays.b_in m c k
  wz := by
    intro k j
    dsimp only [Cert.Blocks.Q, Cert.Blocks.QA, Cert.Blocks.AV, Cert.Payload.windowsOf]
    exact Cert.WindowArrays.w_z m c k j
  wx := by
    intro k j
    dsimp only [Cert.Blocks.Q, Cert.Blocks.QA, Cert.Blocks.AV, Cert.Payload.windowsOf]
    exact Cert.WindowArrays.w_x m c k j
  cwx := by
    intro j
    dsimp only [Cert.Blocks.Q, Cert.Blocks.QA, Cert.Blocks.AV, Cert.Payload.windowsOf]
    exact Cert.WindowArrays.cw_x m c j
  cbx := by
    intro j
    dsimp only [Cert.Blocks.Q, Cert.Blocks.QA, Cert.Blocks.AV, Cert.Payload.windowsOf]
    exact Cert.WindowArrays.cb_x m c j
  wB := by
    intro k n
    dsimp only [Cert.Blocks.Q, Cert.Blocks.QA, Cert.Blocks.AV, Cert.Payload.windowsOf]
    exact Cert.WindowArrays.w_B m c k n
  cwB := by
    intro n
    dsimp only [Cert.Blocks.Q, Cert.Blocks.QA, Cert.Blocks.AV, Cert.Payload.windowsOf]
    exact Cert.WindowArrays.cw_B m c n
  cbB := by
    intro n
    dsimp only [Cert.Blocks.Q, Cert.Blocks.QA, Cert.Blocks.AV, Cert.Payload.windowsOf]
    exact Cert.WindowArrays.cb_B m c n
  wC := by
    intro k n
    dsimp only [Cert.Blocks.Q, Cert.Blocks.QA, Cert.Blocks.AV, Cert.Payload.windowsOf]
    exact Cert.WindowArrays.w_C m c k n
  cwC := by
    intro n
    dsimp only [Cert.Blocks.Q, Cert.Blocks.QA, Cert.Blocks.AV, Cert.Payload.windowsOf]
    exact Cert.WindowArrays.cw_C m c n
  cbC := by
    intro n
    dsimp only [Cert.Blocks.Q, Cert.Blocks.QA, Cert.Blocks.AV, Cert.Payload.windowsOf]
    exact Cert.WindowArrays.cb_C m c n
  wdt := by
    intro k n hn
    dsimp only [Cert.Blocks.Q, Cert.Blocks.QA, Cert.Blocks.AV, Cert.Payload.windowsOf]
    exact Cert.WindowArrays.w_dt m c k n hn
  dtb := by
    intro h
    dsimp only [Cert.Blocks.Q, Cert.Blocks.QA, Cert.Blocks.AV, Cert.Payload.windowsOf]
    exact Cert.WindowArrays.dt_bias m c h
  rep := by
    intro h j
    dsimp only [Cert.Blocks.Q, Cert.Blocks.QA, Cert.Blocks.AV, Cert.Payload.windowsOf]
    exact Cert.WindowArrays.«repeat» m c h j
  dfull := by
    intro j
    dsimp only [Cert.Blocks.Q, Cert.Blocks.QA, Cert.Blocks.AV, Cert.Payload.windowsOf]
    exact Cert.WindowArrays.d_full m c j
  nw := by
    intro j
    dsimp only [Cert.Blocks.Q, Cert.Blocks.QA, Cert.Blocks.AV, Cert.Payload.windowsOf]
    exact Cert.WindowArrays.norm_w m c j
  wop := by
    intro j k
    dsimp only [Cert.Blocks.Q, Cert.Blocks.QA, Cert.Blocks.AV, Cert.Payload.windowsOf]
    exact Cert.WindowArrays.w_outproj m c j k
  wo := by
    intro k q
    dsimp only [Cert.Blocks.Q, Cert.Blocks.QA, Cert.Blocks.AV, Cert.Payload.windowsOf]
    exact Cert.WindowArrays.w_out m c k q
  bo := by
    intro q
    dsimp only [Cert.Blocks.Q, Cert.Blocks.QA, Cert.Blocks.AV, Cert.Payload.windowsOf]
    exact Cert.WindowArrays.b_out m c q

/-- Under the precondition the kernel's result array is the specification's. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Blocks.Gk m c = Cert.Spec.G (Cert.WindowArrays.W m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  obtain ⟨hW, hs, ha⟩ := Cert.FiniteArgs.entries_real _ _ _ _ _ _ _ _ _ _ _ _ _ _ (hpre c)
  funext i
  have eS : (fun s : Fin 256 => (Cert.KernelIdeal.Gen.V m c Cert.KernelIdeal.main_arg0 : Vec Ideal Cert.KernelIdeal.S16384x256 .f32) (ValueIdx.ix2 (i 0) s))
      = fun s => m ((c.tc : Thread Cert.KernelIdeal.nD Cert.KernelIdeal.τ).loc Cert.KernelIdeal.main_arg0) (ValueIdx.ix2 (i 0) s) := by
    rw [Cert.KernelIdeal.Gen.V_main_arg0]
  have eA : (fun a : Fin 64 => (Cert.KernelIdeal.Gen.V m c Cert.KernelIdeal.main_arg1 : Vec Ideal Cert.KernelIdeal.S16384x64 .f32) (ValueIdx.ix2 (i 0) a))
      = fun a => m ((c.tc : Thread Cert.KernelIdeal.nD Cert.KernelIdeal.τ).loc Cert.KernelIdeal.main_arg1) (ValueIdx.ix2 (i 0) a) := by
    rw [Cert.KernelIdeal.Gen.V_main_arg1]
  show Cert.KernelRow.K.out (Cert.Blocks.Q m c)
      (fun s : Fin 256 => (Cert.KernelIdeal.Gen.V m c Cert.KernelIdeal.main_arg0 : Vec Ideal Cert.KernelIdeal.S16384x256 .f32) (ValueIdx.ix2 (i 0) s))
      (fun a : Fin 64 => (Cert.KernelIdeal.Gen.V m c Cert.KernelIdeal.main_arg1 : Vec Ideal Cert.KernelIdeal.S16384x64 .f32) (ValueIdx.ix2 (i 0) a)) (i 1) = _
  rw [eS, eA]
  exact Cert.KernelRow.K.out_eq (prepared m c) hW (fun s => hs _) (fun a => ha _) (i 1)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's array of the arguments they agree on. -/
theorem algebraic : Cert.algebraic_KernelIdeal_ReferenceIdeal := by
  intro m ρ m' ρ' hpre hagree
  refine ⟨fun c => Cert.Blocks.Gk m c, Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.RefRow.ref_eq]
  show _ = Cert.Blocks.Gk m c
  rw [kernel_result m hpre c]
  obtain ⟨e0, e1, e2, e3, e4, e5, e6, e7, _, e9, e10, e11, e12, e13⟩ := hagree c
  rw [e0, e1, e2, e3, e4, e5, e6, e7, e9, e10, e11, e12, e13]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
